-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S16x2048 : Shape := ⟨2, ![16, 2048]⟩
abbrev S16 : Shape := ⟨1, ![16]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x2048 .f32) (main_arg1 : FVec F S16x2048 .f32) (main_arg2 : FVec F S16 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S32768x2048 : Shape := ⟨2, ![32768, 2048]⟩
abbrev S16x2048 : Shape := ⟨2, ![16, 2048]⟩
abbrev S16 : Shape := ⟨1, ![16]⟩
abbrev S1x16 : Shape := ⟨2, ![1, 16]⟩
abbrev S32768x16 : Shape := ⟨2, ![32768, 16]⟩
abbrev S2x8x16 : Shape := ⟨3, ![2, 8, 16]⟩
abbrev S1024x2048 : Shape := ⟨2, ![1024, 2048]⟩
abbrev S1024x16 : Shape := ⟨2, ![1024, 16]⟩
abbrev S1x8x16 : Shape := ⟨3, ![1, 8, 16]⟩
abbrev S2048x16 : Shape := ⟨2, ![2048, 16]⟩
abbrev S1024 : Shape := ⟨1, ![1024]⟩
abbrev S1024x1 : Shape := ⟨2, ![1024, 1]⟩
abbrev S8x16 : Shape := ⟨2, ![8, 16]⟩
abbrev S2x1x16 : Shape := ⟨3, ![2, 1, 16]⟩
abbrev S2x16 : Shape := ⟨2, ![2, 16]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S16x2048, .f32⟩
  | .hbm, ⟨2, _⟩ => ⟨S16, .f32⟩
  | .hbm, ⟨3, _⟩ => ⟨S1x16, .f32⟩
  | .hbm, ⟨4, _⟩ => ⟨S32768x16, .f32⟩
  | .hbm, ⟨5, _⟩ => ⟨S2x8x16, .f32⟩
  | .hbm, ⟨6, _⟩ => ⟨S2x8x16, .f32⟩
  | .hbm, ⟨7, _⟩ => ⟨S2x1x16, .f32⟩
  | .hbm, ⟨8, _⟩ => ⟨S2x16, .f32⟩
  | .hbm, ⟨9, _⟩ => ⟨S_, .f32⟩
  | .hbm, ⟨10, _⟩ => ⟨S16, .f32⟩
  | .hbm, ⟨11, _⟩ => ⟨S2x1x16, .f32⟩
  | .hbm, ⟨12, _⟩ => ⟨S2x16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x16, .f32⟩
  | .local _ .vmem, ⟨4, _⟩ => ⟨S1024x16, .f32⟩
  | .local _ .vmem, ⟨5, _⟩ => ⟨S1024x16, .f32⟩
  | .local _ .vmem, ⟨6, _⟩ => ⟨S1x8x16, .f32⟩
  | .local _ .vmem, ⟨7, _⟩ => ⟨S1x8x16, .f32⟩
  | .local _ .vmem, ⟨8, _⟩ => ⟨S1x8x16, .f32⟩
  | .local _ .vmem, ⟨9, _⟩ => ⟨S1x8x16, .f32⟩
  | .local _ .vmem, ⟨10, _⟩ => ⟨S1x16, .f32⟩
  | .local _ .vmem, ⟨11, _⟩ => ⟨S1x16, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  transposes_S16x2048_p1_0_S2048x16 : S16x2048.Transposes [1, 0] S2048x16
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  reduces_S1024x16_S16 : S1024x16.Reduces [0] S16
  broadcasts_S1x16_S8x16 : S1x16.Broadcasts S8x16
  shapeCasts_S8x16_S1x8x16 : S8x16.ShapeCasts S1x8x16
  inb_S1x8x16_S1x8x16_0_0_0 : ∀ a, (![0, 0, 0] : Fin 3 → Nat) a + S1x8x16.size a ≤ S1x8x16.size a
  h_S1x8x16 : 0 < S1x8x16.numel
  slices_S2x8x16_S2x1x16_0_0_0 : S2x8x16.Slices ![0, 0, 0] S2x1x16
  shapeCasts_S2x1x16_S2x16 : S2x1x16.ShapeCasts S2x16
  reducesTo_S2x16_S16_d0 : S2x16.ReducesTo [0] S16
  h_S_ : 0 < S_.numel
  reducesTo_S16_S_d0 : S16.ReducesTo [0] S_
  dot_S1024x2048_S2048x16_S1024x16_1_0_0_1_n_n_wf : DotDims.WF S1024x2048 S2048x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S32768x16.size a
  hwx0_3 : ∀ i : grid0.Coords, EltTy.bits .f32 = 32 ∨ (Rect.block (s := S32768x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x16.size a ≤ S2x8x16.size a
  hwx0_4 : ∀ i : grid0.Coords, EltTy.bits .f32 = 32 ∨ (Rect.block (s := S2x8x16) S1x8x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x16.size a ≤ S2x8x16.size a
  hwx0_5 : ∀ i : grid0.Coords, EltTy.bits .f32 = 32 ∨ (Rect.block (s := S2x8x16) S1x8x16.size (cc0_transform_5 i) (hinb0_5 i)).WholeWords (EltTy.packing .f32)

variable [Facts₀]

def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x8x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x8x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32768x2048 : Shape := ⟨2, ![32768, 2048]⟩
abbrev S16x2048 : Shape := ⟨2, ![16, 2048]⟩
abbrev S16 : Shape := ⟨1, ![16]⟩
abbrev S32768x16 : Shape := ⟨2, ![32768, 16]⟩
abbrev S_ : Shape := ⟨0, ![]⟩
abbrev S32768 : Shape := ⟨1, ![32768]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x2048, .f32⟩
  | .hbm, ⟨2, _⟩ => ⟨S16, .f32⟩
  | .hbm, ⟨3, _⟩ => ⟨S32768x16, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x16, .f32⟩
  | .hbm, ⟨11, _⟩ => ⟨S32768x16, .f32⟩
  | .hbm, ⟨12, _⟩ => ⟨S32768x16, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x16, .f32⟩
  | .hbm, ⟨17, _⟩ => ⟨S32768x16, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x16, .i1⟩
  | .hbm, ⟨30, _⟩ => ⟨S_, .f32⟩
  | .hbm, ⟨31, _⟩ => ⟨S32768x16, .f32⟩
  | .hbm, ⟨32, _⟩ => ⟨S32768x16, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_call0_v0 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  reducesTo_S32768x16_S32768_d1 : S32768x16.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x16_0_1 : S32768x1.BroadcastsInDim S32768x16 (![0, 1] : Fin 2 → Fin S32768x16.rank)
  bcast_S_S32768x1 : S_.BroadcastsInDim S32768x1 (![] : Fin 0 → Fin S32768x1.rank)
  bcast_S_S32768x16 : S_.BroadcastsInDim S32768x16 (![] : Fin 0 → Fin S32768x16.rank)
  reducesTo_S32768x16_S16_d0 : S32768x16.ReducesTo [0] S16
  bcast_S_S16 : S_.BroadcastsInDim S16 (![] : Fin 0 → Fin S16.rank)
  reducesTo_S16_S_d0 : S16.ReducesTo [0] S_
  dot_S32768x2048_S16x2048_S32768x16_1_1_0_0_n_n_wf : DotDims.WF S32768x2048 S16x2048 S32768x16 [1] [1] [0] [0] [] []

variable [Facts₀]

def dot_S32768x2048_S16x2048_S32768x16_1_1_0_0_n_n : DotDims S32768x2048 S16x2048 S32768x16 where
  lhsContracting := [1]
  rhsContracting := [1]
  lhsNonContracting := [0]
  rhsNonContracting := [0]
  lhsBatch := []
  rhsBatch := []
  wf := dot_S32768x2048_S16x2048_S32768x16_1_1_0_0_n_n_wf

class Facts : Prop extends Facts₀ where

variable [Facts]
-- ==== Proof.KernelPieces.lean ====
/-
  What one run of the body leaves behind, case by case, as plain compositions of the body's arithmetic.

  The body is run at 32 grid points, 16 per core.  At every point it stores the block of 0/1 weights of its 1024 tokens.
  Two one-row accumulators live across a core's 16 points: the count of kept tokens per expert and the probability mass
  per expert.  At a core's first point both are zeroed before the block's column sums are added; at the other points the
  sums are added to what the point before left; at a core's last point the two accumulators are also copied, each into the
  eight rows of the core's block of the two partial-sum outputs.
-/
import proofs.«116905_j29575144800914_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.GateValue

open Cert.KernelIdeal Cert.KernelIdeal.Gen

variable {F : FTy → Type} [FloatOps F]

/-- Every load and store of the body is of a whole buffer: its offsets are all zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a core's first point the weights block is the body's one store of it. -/
theorem weights_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : cond0_0 i) (hc1 : ¬cond0_1 i)
    (x0 : Vec F S1024x2048 .f32) (x1 : Vec F S16x2048 .f32) (x2 : Vec F S1x16 .f32) :
    out0_A_3 c i arg2 harg2 arg3 harg3 arg4 harg4 arg5 harg5 arg6 harg6 arg7 harg7 arg8 harg8 arg9 harg9 hc0 hc1 x0 x1 x2 = k0_pay8 x0 x1 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a core's first point the count accumulator is zeroed, read back, and left at zero plus the block's column sums of the weights. -/
theorem count_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : cond0_0 i) (hc1 : ¬cond0_1 i)
    (x0 : Vec F S1024x2048 .f32) (x1 : Vec F S16x2048 .f32) (x2 : Vec F S1x16 .f32) :
    sout0_A_0 c i arg2 harg2 arg3 harg3 arg4 harg4 arg5 harg5 arg6 harg6 arg7 harg7 arg8 harg8 arg9 harg9 hc0 hc1 x0 x1 x2 = k0_pay1 (k0_pay9 x0 x1 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  (try sl_unfold_words)
  rw [View.canon_cons_unit_zero (S := S1x16) hz2, View.readCov_unit_zero (S := S1x16) _ hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a core's first point the probability accumulator is zeroed, read back, and left at zero plus the block's column sums of the probabilities. -/
theorem mass_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : cond0_0 i) (hc1 : ¬cond0_1 i)
    (x0 : Vec F S1024x2048 .f32) (x1 : Vec F S16x2048 .f32) (x2 : Vec F S1x16 .f32) :
    sout0_A_1 c i arg2 harg2 arg3 harg3 arg4 harg4 arg5 harg5 arg6 harg6 arg7 harg7 arg8 harg8 arg9 harg9 hc0 hc1 x0 x1 x2 = k0_pay2 (k0_pay7 x0 x1) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  (try sl_unfold_words)
  rw [View.canon_cons_unit_zero (S := S1x16) hz2, View.readCov_unit_zero (S := S1x16) _ hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a middle point the weights block is the body's one store of it. -/
theorem weights_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : ¬cond0_1 i)
    (x0 : Vec F S1024x2048 .f32) (x1 : Vec F S16x2048 .f32) (x2 : Vec F S1x16 .f32) (xs0 : Vec F S1x16 .f32) (xs1 : Vec F S1x16 .f32) :
    out0_B_3 c i arg2 harg2 arg3 harg3 arg4 harg4 arg5 harg5 arg6 harg6 arg7 harg7 arg8 harg8 arg9 harg9 hc0 hc1 x0 x1 x2 xs0 xs1 = k0_pay8 x0 x1 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a middle point the count accumulator gains the block's column sums of the weights. -/
theorem count_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : ¬cond0_1 i)
    (x0 : Vec F S1024x2048 .f32) (x1 : Vec F S16x2048 .f32) (x2 : Vec F S1x16 .f32) (xs0 : Vec F S1x16 .f32) (xs1 : Vec F S1x16 .f32) :
    sout0_B_0 c i arg2 harg2 arg3 harg3 arg4 harg4 arg5 harg5 arg6 harg6 arg7 harg7 arg8 harg8 arg9 harg9 hc0 hc1 x0 x1 x2 xs0 xs1 = k0_pay1 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a middle point the probability accumulator gains the block's column sums of the probabilities. -/
theorem mass_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : ¬cond0_1 i)
    (x0 : Vec F S1024x2048 .f32) (x1 : Vec F S16x2048 .f32) (x2 : Vec F S1x16 .f32) (xs0 : Vec F S1x16 .f32) (xs1 : Vec F S1x16 .f32) :
    sout0_B_1 c i arg2 harg2 arg3 harg3 arg4 harg4 arg5 harg5 arg6 harg6 arg7 harg7 arg8 harg8 arg9 harg9 hc0 hc1 x0 x1 x2 xs0 xs1 = k0_pay2 (k0_pay7 x0 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a core's last point the weights block is the body's one store of it. -/
theorem weights_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : cond0_1 i)
    (x0 : Vec F S1024x2048 .f32) (x1 : Vec F S16x2048 .f32) (x2 : Vec F S1x16 .f32) (xs0 : Vec F S1x16 .f32) (xs1 : Vec F S1x16 .f32) :
    out0_C_3 c i arg2 harg2 arg3 harg3 arg4 harg4 arg5 harg5 arg6 harg6 arg7 harg7 arg8 harg8 arg9 harg9 hc0 hc1 x0 x1 x2 xs0 xs1 = k0_pay8 x0 x1 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1)]
  unfold kernelRun0_C
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- At a core's last point the count accumulator gains the block's column sums of the weights, -/
theorem count_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : cond0_1 i)
    (x0 : Vec F S1024x2048 .f32) (x1 : Vec F S16x2048 .f32) (x2 : Vec F S1x16 .f32) (xs0 : Vec F S1x16 .f32) (xs1 : Vec F S1x16 .f32) :
    sout0_C_0 c i arg2 harg2 arg3 harg3 arg4 harg4 arg5 harg5 arg6 harg6 arg7 harg7 arg8 harg8 arg9 harg9 hc0 hc1 x0 x1 x2 xs0 xs1 = k0_pay1 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1)]
  unfold kernelRun0_C
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- the probability accumulator the block's column sums of the probabilities, -/
theorem mass_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : cond0_1 i)
    (x0 : Vec F S1024x2048 .f32) (x1 : Vec F S16x2048 .f32) (x2 : Vec F S1x16 .f32) (xs0 : Vec F S1x16 .f32) (xs1 : Vec F S1x16 .f32) :
    sout0_C_1 c i arg2 harg2 arg3 harg3 arg4 harg4 arg5 harg5 arg6 harg6 arg7 harg7 arg8 harg8 arg9 harg9 hc0 hc1 x0 x1 x2 xs0 xs1 = k0_pay2 (k0_pay7 x0 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1)]
  unfold kernelRun0_C
  dsimp only
  (try sl_unfold_words)
  rw [View.canon_unit_zero hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- and the count accumulator, as just updated, is copied into the eight rows of the core's count block, -/
theorem countOut_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : cond0_1 i)
    (x0 : Vec F S1024x2048 .f32) (x1 : Vec F S16x2048 .f32) (x2 : Vec F S1x16 .f32) (xs0 : Vec F S1x16 .f32) (xs1 : Vec F S1x16 .f32) :
    out0_C_4 c i arg2 harg2 arg3 harg3 arg4 harg4 arg5 harg5 arg6 harg6 arg7 harg7 arg8 harg8 arg9 harg9 hc0 hc1 x0 x1 x2 xs0 xs1 = k0_pay3 (k0_pay1 (k0_pay9 x0 x1 xs0)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1)]
  unfold kernelRun0_C
  dsimp only
  (try sl_unfold_words)
  rw [View.canon_unit_zero hz3, View.readCov_unit_zero (S := S1x16) _ hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

/-- and the probability accumulator into the eight rows of the core's probability block. -/
theorem massOut_C (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1x8x16 .f32) (harg6 : arg6.IsWhole) (arg7 : Memref sig .tc .vmem S1x8x16 .f32) (harg7 : arg7.IsWhole) (arg8 : Memref sig .tc .vmem S1x16 .f32) (harg8 : arg8.IsWhole) (arg9 : Memref sig .tc .vmem S1x16 .f32) (harg9 : arg9.IsWhole) (hc0 : ¬cond0_0 i) (hc1 : cond0_1 i)
    (x0 : Vec F S1024x2048 .f32) (x1 : Vec F S16x2048 .f32) (x2 : Vec F S1x16 .f32) (xs0 : Vec F S1x16 .f32) (xs1 : Vec F S1x16 .f32) :
    out0_C_5 c i arg2 harg2 arg3 harg3 arg4 harg4 arg5 harg5 arg6 harg6 arg7 harg7 arg8 harg8 arg9 harg9 hc0 hc1 x0 x1 x2 xs0 xs1 = k0_pay4 (k0_pay2 (k0_pay7 x0 x1) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 xs0 xs1)]
  unfold kernelRun0_C
  dsimp only
  (try sl_unfold_words)
  rw [View.canon_unit_zero hz3, View.readCov_unit_zero (S := S1x16) _ hz2]
  simp only [View.readAt_eq_ld, harg2.read_unread, harg3.read_unread, harg8.read_unread, harg9.read_unread, View.ld_unit_zero (S := S1024x2048) hz2, View.ld_unit_zero (S := S16x2048) hz2, View.ld_unit_zero (S := S1x16) hz2]

end Cert.KernelIdeal.GateValue

end
-- ==== Proof.KernelChain.lean ====
/-
  The two accumulators point by point, and what each output block holds, in the body's own arithmetic.

  Within a core's run of 16 points the count accumulator starts from zero at the first point and gains, at every point,
  the column sums of that point's block of weights; the probability accumulator likewise with the block's probabilities.
  This is a recursion on the point, with a restart every 16 points.  Every point's weights block is the body's one store
  of it, and at a core's last point the two partial-sum blocks are copies of the accumulators as just updated.
-/
import proofs.«116905_j29575144800914_2_alg».proof.Proof.KernelPieces

set_option maxRecDepth 16384

noncomputable section

open Idealize.ShloMosaic Idealize.ShloMosaic.TcCoe Idealize.SL.Sem
open Idealize.ShloMosaic.Pipeline (Dat)

namespace Cert.KernelIdeal.GateValue

open Cert.KernelIdeal Cert.KernelIdeal.Gen

variable {F : FTy → Type} [FloatOps F]
variable (m : (ℓ : Loc nD τ sig) → Buf (Elt F) ℓ)

/-- The accumulators after a core's first point: zero plus the block's column sums. -/
def startAcc (x : Vec F S1024x2048 .f32) (w : Vec F S16x2048 .f32) : Vec F S1x16 .f32 × Vec F S1x16 .f32 :=
  (k0_pay1 (k0_pay9 x w (k0_pay5 (F := F))), k0_pay2 (k0_pay7 x w) (k0_pay6 (F := F)))

/-- The accumulators after a later point: what the point before left plus the block's column sums. -/
def stepAcc (x : Vec F S1024x2048 .f32) (w : Vec F S16x2048 .f32) (a : Vec F S1x16 .f32 × Vec F S1x16 .f32) :
    Vec F S1x16 .f32 × Vec F S1x16 .f32 :=
  (k0_pay1 (k0_pay9 x w a.1), k0_pay2 (k0_pay7 x w) a.2)

/-- The accumulators after point `n`: restarted at the points divisible by 16. -/
def accs (c : Dev nD) : (n : ℕ) → n < cfg0.N → Vec F S1x16 .f32 × Vec F S1x16 .f32
  | 0, h => startAcc (iblk m c 0 ⟨0, h⟩) (iblk m c 1 ⟨0, h⟩)
  | n + 1, h =>
    if (n + 1) % 16 = 0 then startAcc (iblk m c 0 ⟨n + 1, h⟩) (iblk m c 1 ⟨n + 1, h⟩)
    else stepAcc (iblk m c 0 ⟨n + 1, h⟩) (iblk m c 1 ⟨n + 1, h⟩) (accs c n (Nat.lt_of_succ_lt h))

theorem accs_start (c : Dev nD) (t : Fin cfg0.N) (h0 : t.val % 16 = 0) :
    accs m c t.val t.isLt = startAcc (iblk m c 0 t) (iblk m c 1 t) := by
  obtain ⟨n, hn⟩ := t
  cases n with
  | zero => rfl
  | succ n => exact if_pos h0

theorem accs_step (c : Dev nD) (t : Fin cfg0.N) (h0 : ¬t.val % 16 = 0) :
    accs m c t.val t.isLt
      = stepAcc (iblk m c 0 t) (iblk m c 1 t) (accs m c (t.val - 1) (Nat.lt_of_le_of_lt (Nat.sub_le _ _) t.isLt)) := by
  obtain ⟨n, hn⟩ := t
  cases n with
  | zero => exact absurd (Nat.zero_mod _) h0
  | succ n => exact if_neg h0

set_option maxHeartbeats 4000000 in
/-- What the body leaves in the two accumulators after point `n` is that recursion: by induction on the point. -/
theorem carried_eq (c : Dev nD) : ∀ (n : ℕ) (h : n < cfg0.N), (outsAt0 m c n h).2.2.2 = accs m c n h := by
  intro n
  induction n with
  | zero =>
    intro h
    have h0 : (⟨0, h⟩ : Fin cfg0.N).val % 16 = 0 := Nat.zero_mod _
    have h1 : ¬(⟨0, h⟩ : Fin cfg0.N).val % 16 = 15 := by dsimp only; omega
    refine (congrArg (fun x => x.2.2.2) (outsAt0_A m c (⟨0, h⟩ : Fin cfg0.N) h0 h1)).trans ?_
    exact Prod.ext (count_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)))
      (mass_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)))
  | succ n ih =>
    intro h
    have hN : n + 1 < 32 := lt_of_lt_of_eq h (show cfg0.N = 32 from N_0)
    by_cases h0 : (⟨n + 1, h⟩ : Fin cfg0.N).val % 16 = 0
    · have h1 : ¬(⟨n + 1, h⟩ : Fin cfg0.N).val % 16 = 15 := by dsimp only at h0 ⊢; omega
      refine ((congrArg (fun x => x.2.2.2) (outsAt0_A m c (⟨n + 1, h⟩ : Fin cfg0.N) h0 h1)).trans ?_).trans (accs_start m c (⟨n + 1, h⟩ : Fin cfg0.N) h0).symm
      exact Prod.ext (count_A c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)))
        (mass_A c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) ((hcond0_0 (⟨n + 1, h⟩ : Fin cfg0.N)).mpr h0) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)))
    · have hprev : (outsAt0 m c ((⟨n + 1, h⟩ : Fin cfg0.N).val - 1) (Nat.lt_of_le_of_lt (Nat.sub_le _ _) (⟨n + 1, h⟩ : Fin cfg0.N).isLt)).2.2.2
          = accs m c ((⟨n + 1, h⟩ : Fin cfg0.N).val - 1) (Nat.lt_of_le_of_lt (Nat.sub_le _ _) (⟨n + 1, h⟩ : Fin cfg0.N).isLt) :=
        ih (Nat.lt_of_succ_lt h)
      refine Eq.trans ?_ ((congrArg (stepAcc (iblk m c 0 (⟨n + 1, h⟩ : Fin cfg0.N)) (iblk m c 1 (⟨n + 1, h⟩ : Fin cfg0.N))) hprev).trans (accs_step m c (⟨n + 1, h⟩ : Fin cfg0.N) h0).symm)
      by_cases h1 : (⟨n + 1, h⟩ : Fin cfg0.N).val % 16 = 15
      · refine (congrArg (fun x => x.2.2.2) (outsAt0_C m c (⟨n + 1, h⟩ : Fin cfg0.N) h0 h1)).trans ?_
        exact Prod.ext (count_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2)
          (mass_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2)
      · refine (congrArg (fun x => x.2.2.2) (outsAt0_B m c (⟨n + 1, h⟩ : Fin cfg0.N) h0 h1)).trans ?_
        exact Prod.ext (count_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2)
          (mass_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2)

set_option maxHeartbeats 4000000 in
/-- Every point's weights block is the body's one store of it. -/
theorem weights_eq (c : Dev nD) (t : Fin cfg0.N) :
    (outsAt0 m c t.val t.isLt).1 = k0_pay8 (iblk m c 0 t) (iblk m c 1 t) := by
  have hN : t.val < 32 := lt_of_lt_of_eq t.isLt (show cfg0.N = 32 from N_0)
  by_cases h0 : t.val % 16 = 0
  · have h1 : ¬t.val % 16 = 15 := by omega
    refine (congrArg (fun x => x.1) (outsAt0_A m c t h0 h1)).trans ?_
    exact weights_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun hh => h1 ((hcond0_1 t).mp hh)) (iblk m c 0 t) (iblk m c 1 t) (iblk m c 2 t)
  · by_cases h1 : t.val % 16 = 15
    · refine (congrArg (fun x => x.1) (outsAt0_C m c t h0 h1)).trans ?_
      exact weights_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    · refine (congrArg (fun x => x.1) (outsAt0_B m c t h0 h1)).trans ?_
      exact weights_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

set_option maxHeartbeats 4000000 in
/-- At a core's last point the two partial-sum blocks are copies of the accumulators as just updated. -/
theorem sums_eq (c : Dev nD) (t : Fin cfg0.N) (h1 : t.val % 16 = 15) :
    (outsAt0 m c t.val t.isLt).2.1 = k0_pay3 (accs m c t.val t.isLt).1
      ∧ (outsAt0 m c t.val t.isLt).2.2.1 = k0_pay4 (accs m c t.val t.isLt).2 := by
  have h0 : ¬t.val % 16 = 0 := by omega
  have hprev := carried_eq m c (t.val - 1) (Nat.lt_of_le_of_lt (Nat.sub_le _ _) t.isLt)
  have hacc : accs m c t.val t.isLt = stepAcc (iblk m c 0 t) (iblk m c 1 t) (outsAt0 m c (t.val - 1) (Nat.lt_of_le_of_lt (Nat.sub_le _ _) t.isLt)).2.2.2 :=
    (accs_step m c t h0).trans (congrArg (stepAcc (iblk m c 0 t) (iblk m c 1 t)) hprev.symm)
  constructor
  · refine ((congrArg (fun x => x.2.1) (outsAt0_C m c t h0 h1)).trans ?_).trans (congrArg (fun a => k0_pay3 a.1) hacc.symm)
    exact countOut_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
  · refine ((congrArg (fun x => x.2.2.1) (outsAt0_C m c t h0 h1)).trans ?_).trans (congrArg (fun a => k0_pay4 a.2) hacc.symm)
    exact massOut_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.GateValue

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLogSoftmax.lean ====
/-
  The row-wise log-softmax `z − max z − log ∑ exp (z − max z)` of an `[M, C]` array, in its two spellings, read as ONE
  index-by-index function over the extended reals.

  * In a kernel: a lane `multi_reduction <maximumf>` from −∞, the result cast to a column and broadcast back, a
    subtraction, `exp`, a lane `multi_reduction <add>`, `log` of the column, a second subtraction.
  * On the host: a `reduce` with a `maximum` body from −∞ (and one more `maximum` with a splat −∞, which changes
    nothing), the column forms by `broadcast_in_dim`, a `reduce` with an `add` body from zero.

  Both read, at `(p, q)`, `(z (p, q) − μ) − log ∑ⱼ exp (z (p, j) − μ)` with `μ` the fold of `max` from −∞ over row `p`.
  The only laws used: `max (−∞) y = y` and `0 + s = s`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«116905_j29575144800914_2_alg».proof.Proof.LibKeepdims

noncomputable section

namespace Cert.Lib

open Idealize.ShloMosaic Idealize.ShloMosaic.ValueIdx

variable {M C : Nat}

/-- The maximum of row `r`, taken from −∞. -/
def rowMax (z : (⟨2, ![M, C]⟩ : Shape).Idx → EReal) (r : Fin M) : EReal :=
  (Finset.univ : Finset (Fin C)).fold max (Ideal.ofBits .f32 0xFF800000#32) (fun j => z (ix2 r j))

/-- Each entry less its row's maximum. -/
def shifted (z : (⟨2, ![M, C]⟩ : Shape).Idx → EReal) : (⟨2, ![M, C]⟩ : Shape).Idx → EReal :=
  fun i => z i - rowMax z (i 0)

/-- The row-wise log-softmax: the shifted entry less the logarithm of the row's sum of exponentials. -/
def logSoftmax (z : (⟨2, ![M, C]⟩ : Shape).Idx → EReal) : (⟨2, ![M, C]⟩ : Shape).Idx → EReal :=
  fun i => shifted z i - Ideal.log (∑ j : Fin C, Ideal.exp (shifted z (ix2 (i 0) j)))

/-- Row `p` with lane `k` put back is the index `(p, k)`. -/
theorem lift_lane (h : (⟨2, ![M, C]⟩ : Shape).Reduces [(1 : Fin 2)] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

theorem max_negInf (y : EReal) : max (Ideal.ofBits .f32 0xFF800000#32) y = y := by
  simp [Ideal.ofBits, Ideal.ieee]

/-- The kernel's spelling. -/
theorem kernel_logSoftmax (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf (subf z (broadcastTo ⟨2, ![M, C]⟩ (shapeCast ⟨2, ![M, 1]⟩
            (multiReduction .maximumf [(1 : Fin 2)] ⟨1, ![M]⟩ z 0xFF800000#32 hr hφ hmax) hc) hb))
        (broadcastTo ⟨2, ![M, C]⟩ (log (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc)) hb)
      = logSoftmax z := by
  have hmx : ∀ (p : Fin M) (q : Fin C), broadcastTo ⟨2, ![M, C]⟩ (shapeCast ⟨2, ![M, 1]⟩
      (multiReduction .maximumf [(1 : Fin 2)] ⟨1, ![M]⟩ z 0xFF800000#32 hr hφ hmax) hc) hb (ix2 p q) = rowMax z p := by
    intro p q
    rw [Cert.LibKeepdims.broadcastTo_a1_ab_apply _ hb p q, Cert.LibKeepdims.shapeCast_a_a1_apply _ hc p (0 : Fin 1),
      Ideal.multiReduction_maximumf_single z _ hr hφ hmax (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastTo ⟨2, ![M, C]⟩ (shapeCast ⟨2, ![M, 1]⟩
      (multiReduction .maximumf [(1 : Fin 2)] ⟨1, ![M]⟩ z 0xFF800000#32 hr hφ hmax) hc) hb) (ix2 p q) = shifted z (ix2 p q) := by
    intro p q
    show z (ix2 p q) - _ = z (ix2 p q) - rowMax z p
    rw [hmx p q]
  funext i
  obtain ⟨p, q, rfl⟩ : ∃ (p : Fin M) (q : Fin C), i = ix2 p q := ⟨i 0, i 1, eq_ix2 i⟩
  show subf z _ (ix2 p q) - broadcastTo ⟨2, ![M, C]⟩ _ hb (ix2 p q)
    = shifted z (ix2 p q) - Ideal.log (∑ j : Fin C, Ideal.exp (shifted z (ix2 p j)))
  rw [hsh p q, Cert.LibKeepdims.broadcastTo_a1_ab_apply _ hb p q]
  show shifted z (ix2 p q) - Ideal.log (shapeCast ⟨2, ![M, 1]⟩ _ hc (ix2 p (0 : Fin 1))) = _
  rw [Cert.LibKeepdims.shapeCast_a_a1_apply _ hc p (0 : Fin 1), Ideal.multiReduction_add_single _ _ hr hφ hadd (ix1 p)]
  refine congrArg (fun s => shifted z (ix2 p q) - Ideal.log s) (Finset.sum_congr rfl fun k _ => ?_)
  rw [lift_lane hr p k]
  exact congrArg Ideal.exp (hsh p k)

/-- The host's spelling. -/
theorem host_logSoftmax (z : FVec Ideal ⟨2, ![M, C]⟩ .f32)
    (h' : (⟨2, ![M, C]⟩ : Shape).ReducesTo [(1 : Fin 2)] (⟨1, ![M]⟩ : Shape))
    (hr : (⟨2, ![M, C]⟩ : Shape).Reduces [(1 : Fin 2)] (⟨1, ![M]⟩ : Shape)) (hu : 0 < (⟨0, ![]⟩ : Shape).numel)
    (b0 : (⟨0, ![]⟩ : Shape).BroadcastsInDim ⟨1, ![M]⟩ ![])
    (b1 : (⟨1, ![M]⟩ : Shape).BroadcastsInDim ⟨2, ![M, 1]⟩ ![0])
    (b2 : (⟨2, ![M, 1]⟩ : Shape).BroadcastsInDim ⟨2, ![M, C]⟩ ![0, 1]) :
    subf (subf z (broadcastInDim ⟨2, ![M, C]⟩ ![0, 1] b2 (broadcastInDim ⟨2, ![M, 1]⟩ ![0] b1
            (maximumf (broadcastInDim ⟨1, ![M]⟩ ![] b0 (constant (F := Ideal) ⟨0, ![]⟩ .f32 0xFF800000#32))
              (Host.reduce FloatOps.maximumf z (constant (F := Ideal) ⟨0, ![]⟩ .f32 0xFF800000#32) h' hu)))))
        (broadcastInDim ⟨2, ![M, C]⟩ ![0, 1] b2 (Host.log (broadcastInDim ⟨2, ![M, 1]⟩ ![0] b1
            (Host.reduceAdd (Host.exp (subf z (broadcastInDim ⟨2, ![M, C]⟩ ![0, 1] b2 (broadcastInDim ⟨2, ![M, 1]⟩ ![0] b1
              (maximumf (broadcastInDim ⟨1, ![M]⟩ ![] b0 (constant (F := Ideal) ⟨0, ![]⟩ .f32 0xFF800000#32))
                (Host.reduce FloatOps.maximumf z (constant (F := Ideal) ⟨0, ![]⟩ .f32 0xFF800000#32) h' hu))))))
              (constant (F := Ideal) ⟨0, ![]⟩ .f32 0x00000000#32) h' hu))))
      = logSoftmax z := by
  -- a column `[M, 1]` made from a vector `[M]` and broadcast over the lanes reads the vector at the row
  have hcol : ∀ (v : (⟨1, ![M]⟩ : Shape).Idx → EReal) (p : Fin M) (q : Fin C),
      broadcastInDim ⟨2, ![M, C]⟩ ![0, 1] b2 (broadcastInDim ⟨2, ![M, 1]⟩ ![0] b1 v) (ix2 p q) = v (ix1 p) := by
    intro v p q
    rw [broadcastInDim_apply ![0, 1] b2 _ (ix2 p q) (ix2 p (0 : Fin 1)) (fun a => by
      match a with
      | ⟨0, _⟩ =>
        show p.val = if M = 1 then 0 else p.val
        split
        · have := p.isLt; omega
        · rfl
      | ⟨1, _⟩ => rfl)]
    rw [broadcastInDim_apply ![0] b1 v (ix2 p (0 : Fin 1)) (ix1 p) (fun a => by
      match a with
      | ⟨0, _⟩ =>
        show p.val = if M = 1 then 0 else p.val
        split
        · have := p.isLt; omega
        · rfl)]
  have hmx : ∀ (p : Fin M), maximumf (broadcastInDim ⟨1, ![M]⟩ ![] b0 (constant (F := Ideal) ⟨0, ![]⟩ .f32 0xFF800000#32))
      (Host.reduce FloatOps.maximumf z (constant (F := Ideal) ⟨0, ![]⟩ .f32 0xFF800000#32) h' hu) (ix1 p) = rowMax z p := by
    intro p
    show max (broadcastInDim ⟨1, ![M]⟩ ![] b0 (constant (F := Ideal) ⟨0, ![]⟩ .f32 0xFF800000#32) (ix1 p))
      (Host.reduce FloatOps.maximumf z (constant (F := Ideal) ⟨0, ![]⟩ .f32 0xFF800000#32) h' hu (ix1 p)) = _
    rw [broadcastInDim_apply ![] b0 _ (ix1 p) ix0 (fun a => a.elim0)]
    show max (Ideal.ofBits .f32 0xFF800000#32) _ = _
    rw [max_negInf, Host.reduce_eq_fold_single FloatOps.maximumf z _ h' hr hu (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastInDim ⟨2, ![M, C]⟩ ![0, 1] b2 (broadcastInDim ⟨2, ![M, 1]⟩ ![0] b1
      (maximumf (broadcastInDim ⟨1, ![M]⟩ ![] b0 (constant (F := Ideal) ⟨0, ![]⟩ .f32 0xFF800000#32))
        (Host.reduce FloatOps.maximumf z (constant (F := Ideal) ⟨0, ![]⟩ .f32 0xFF800000#32) h' hu)))) (ix2 p q)
      = shifted z (ix2 p q) := by
    intro p q
    show z (ix2 p q) - _ = z (ix2 p q) - rowMax z p
    rw [hcol _ p q, hmx p]
  funext i
  obtain ⟨p, q, rfl⟩ : ∃ (p : Fin M) (q : Fin C), i = ix2 p q := ⟨i 0, i 1, eq_ix2 i⟩
  show subf z _ (ix2 p q) - _ = shifted z (ix2 p q) - Ideal.log (∑ j : Fin C, Ideal.exp (shifted z (ix2 p j)))
  rw [hsh p q]
  have hlog : ∀ (v : (⟨1, ![M]⟩ : Shape).Idx → EReal),
      broadcastInDim ⟨2, ![M, C]⟩ ![0, 1] b2 (Host.log (F := Ideal) (φ := .f32) (broadcastInDim ⟨2, ![M, 1]⟩ ![0] b1 v)) (ix2 p q)
        = Ideal.log (v (ix1 p)) := by
    intro v
    have e := hcol (fun j => Ideal.log (v j)) p q
    exact e
  rw [hlog]
  show shifted z (ix2 p q) - Ideal.log (Ideal.hostReduceAdd h' _ (Ideal.ofBits .f32 0x00000000#32) (ix1 p)) = _
  rw [Ideal.hostReduceAdd_single h' hr _ _ (ix1 p), Ideal.ofBits_zero_f32, zero_add]
  refine congrArg (fun s => shifted z (ix2 p q) - Ideal.log s) (Finset.sum_congr rfl fun k _ => ?_)
  rw [lift_lane hr p k]
  exact congrArg Ideal.exp (hsh p k)

end Cert.Lib

end
-- ==== Proof.LibRowSoftmax.lean ====
/-
  The softmax of a row, `exp (s q − μ) / ∑ⱼ exp (s j − μ)` with `μ` the row's maximum taken from −∞, as ONE function over
  the extended reals, and the kernel spelling of it along the lanes of an `[M, C]` array: a lane
  `multi_reduction <maximumf>` from −∞ (and one more `maximumf` with a splat −∞, which changes nothing), the result cast
  to a column and broadcast back, a subtraction, `exp`, a lane `multi_reduction <add>`, the column forms again, and a
  division.  The only law used is `max (−∞) y = y`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«116905_j29575144800914_2_alg».proof.Proof.LibKeepdims
import proofs.«116905_j29575144800914_2_alg».proof.Proof.LibLogSoftmax

noncomputable section

namespace Cert.Lib

open Idealize.ShloMosaic Idealize.ShloMosaic.ValueIdx

variable {M C : Nat}

/-- The maximum of a row, taken from −∞. -/
def rowTop (s : Fin C → EReal) : EReal :=
  (Finset.univ : Finset (Fin C)).fold max (Ideal.ofBits .f32 0xFF800000#32) s

/-- The softmax of a row: each entry's exponential, shifted by the row's maximum, over the sum of them all. -/
def softmaxRow (s : Fin C → EReal) : Fin C → EReal :=
  fun q => Ideal.div (Ideal.exp (s q - rowTop s)) (∑ j : Fin C, Ideal.exp (s j - rowTop s))

/-- An array divided by the column of its lane sums broadcast back, read at `(p, q)`: when row `p` of the array is the
    family `f`, the entry is `f q / ∑ⱼ f j`. -/
theorem kernel_rowOverSum (E : FVec Ideal ⟨2, ![M, C]⟩ .f32)
    (hr : (⟨2, ![M, C]⟩ : Shape).Reduces [(1 : Fin 2)] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) (f : Fin C → EReal) (hE : ∀ j : Fin C, E (ix2 p j) = f j) :
    divf E (broadcastTo ⟨2, ![M, C]⟩ (shapeCast ⟨2, ![M, 1]⟩
        (multiReduction .add [(1 : Fin 2)] ⟨1, ![M]⟩ E 0x00000000#32 hr hφ hadd) hc) hb) (ix2 p q)
      = Ideal.div (f q) (∑ j : Fin C, f j) := by
  show Ideal.div (E (ix2 p q)) (broadcastTo ⟨2, ![M, C]⟩ _ hb (ix2 p q)) = _
  rw [hE q, Cert.LibKeepdims.broadcastTo_a1_ab_apply _ hb p q, Cert.LibKeepdims.shapeCast_a_a1_apply _ hc p (0 : Fin 1),
    Ideal.multiReduction_add_single _ _ hr hφ hadd (ix1 p)]
  refine congrArg (fun s => Ideal.div (f q) s) (Finset.sum_congr rfl fun k _ => ?_)
  rw [lift_lane hr p k]
  exact hE ⟨k.val, k.isLt⟩

/-- The exponentials shifted by the row maximum, in the kernel's spelling, read at `(p, j)`. -/
theorem kernel_shiftedExp (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, C]⟩)
    (p : Fin M) (j : Fin C) :
    exp (subf z (broadcastTo ⟨2, ![M, C]⟩ (shapeCast ⟨2, ![M, 1]⟩
        (maximumf (broadcast ⟨1, ![M]⟩ (Scalar.ofBits (F := Ideal) .f32 0xFF800000#32))
          (multiReduction .maximumf [(1 : Fin 2)] ⟨1, ![M]⟩ z 0xFF800000#32 hr hφ hmax)) hc) hb)) (ix2 p j)
      = Ideal.exp (z (ix2 p j) - rowTop (fun j => z (ix2 p j))) := by
  show Ideal.exp (z (ix2 p j) - broadcastTo ⟨2, ![M, C]⟩ _ hb (ix2 p j)) = _
  rw [Cert.LibKeepdims.broadcastTo_a1_ab_apply _ hb p j, Cert.LibKeepdims.shapeCast_a_a1_apply _ hc p (0 : Fin 1)]
  show Ideal.exp (z (ix2 p j) - max (Ideal.ofBits .f32 0xFF800000#32)
    (multiReduction .maximumf [(1 : Fin 2)] ⟨1, ![M]⟩ z 0xFF800000#32 hr hφ hmax (ix1 p))) = _
  rw [max_negInf, Ideal.multiReduction_maximumf_single z _ hr hφ hmax (ix1 p)]
  exact congrArg (fun f => Ideal.exp (z (ix2 p j) - (Finset.univ : Finset (Fin C)).fold max (Ideal.ofBits .f32 0xFF800000#32) f))
    (funext fun k => congrArg z (lift_lane hr p k))

/-- The kernel's spelling of the whole softmax, read at `(p, q)`: entry `q` of the softmax of row `p`. -/
theorem kernel_softmaxRows (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩)
    (p : Fin M) (q : Fin C) :
    divf (exp (subf z (broadcastTo ⟨2, ![M, C]⟩ (shapeCast ⟨2, ![M, 1]⟩
            (maximumf (broadcast ⟨1, ![M]⟩ (Scalar.ofBits (F := Ideal) .f32 0xFF800000#32))
              (multiReduction .maximumf [(1 : Fin 2)] ⟨1, ![M]⟩ z 0xFF800000#32 hr hφ hmax)) hc) hb)))
        (broadcastTo ⟨2, ![M, C]⟩ (shapeCast ⟨2, ![M, 1]⟩
            (multiReduction .add [(1 : Fin 2)] ⟨1, ![M]⟩
              (exp (subf z (broadcastTo ⟨2, ![M, C]⟩ (shapeCast ⟨2, ![M, 1]⟩
                (maximumf (broadcast ⟨1, ![M]⟩ (Scalar.ofBits (F := Ideal) .f32 0xFF800000#32))
                  (multiReduction .maximumf [(1 : Fin 2)] ⟨1, ![M]⟩ z 0xFF800000#32 hr hφ hmax)) hc) hb)))
              0x00000000#32 hr hφ hadd) hc) hb) (ix2 p q)
      = softmaxRow (fun j => z (ix2 p j)) q :=
  kernel_rowOverSum _ hr hφ hadd hc hb p q (fun j => Ideal.exp (z (ix2 p j) - rowTop (fun j => z (ix2 p j))))
    (fun j => kernel_shiftedExp z hr hφ hmax hc hb p j)

end Cert.Lib

end
-- ==== Proof.Spec.lean ====
/-
  The router's mathematics, stated once over the extended reals, with no program in sight.

  A token's row `X t` (2048 entries) is scored against each of the 16 experts' rows `W e`; the 16 scores are turned into
  probabilities by a softmax along the row; an expert is KEPT for the token (weight 1) unless its probability falls
  strictly below half the row's largest probability (weight 0).  The balance loss multiplies, expert by expert, the number
  of tokens that keep the expert, the expert's size rate `R e`, and the expert's total probability, sums the sixteen
  products, and scales the sum.

  The scale is written in two ways.  One program divides each of the two totals by the token count 32768, and multiplies
  the sum of products by 32768 and then by the weight `c` (the f32 nearest 0.01).  The other multiplies the sum of the
  unscaled products once, by the f32 word of `c` with its exponent lowered by 15, which is `c / 32768` exactly.  For real
  totals `(a/N)·r·(b/N)·N·c = a·r·b·(c/N)`.  The first program also writes a kept weight as `1 + p − p`, which is `1` for
  a real probability `p`.
-/
import Idealize.ShloMosaic.PureOps.Ideal
import Idealize.ShloMosaic.PureOps.Ideal.Laws
import Idealize.ShloMosaic.Lib.ValueIdx
import proofs.«116905_j29575144800914_2_alg».proof.Proof.LibRowSoftmax

noncomputable section

namespace Cert.Gate

open Idealize.ShloMosaic Idealize.ShloMosaic.ValueIdx Cert.Lib

/-- The words the two programs print, as extended reals. -/
abbrev zeroW : EReal := Ideal.ofBits .f32 0x00000000#32
abbrev oneW : EReal := Ideal.ofBits .f32 0x3F800000#32
abbrev halfW : EReal := Ideal.ofBits .f32 0x3F000000#32
/-- 32768, the number of tokens. -/
abbrev tokensW : EReal := Ideal.ofBits .f32 0x47000000#32
/-- The loss weight: the f32 nearest 0.01. -/
abbrev weightW : EReal := Ideal.ofBits .f32 0x3C23D70A#32
/-- The same significand with the exponent lowered by 15: the weight over 32768. -/
abbrev scaleW : EReal := Ideal.ofBits .f32 0x34A3D70A#32

/-- An array of two axes read by coordinates, and a vector read by its coordinate. -/
abbrev cur2 {a b : Nat} (x : (⟨2, ![a, b]⟩ : Shape).Idx → EReal) : Fin a → Fin b → EReal := fun i j => x (ix2 i j)
abbrev cur1 {a : Nat} (x : (⟨1, ![a]⟩ : Shape).Idx → EReal) : Fin a → EReal := fun i => x (ix1 i)

section
variable (X : Fin 32768 → Fin 2048 → EReal) (W : Fin 16 → Fin 2048 → EReal) (R : Fin 16 → EReal)

/-- Token `t`'s sixteen scores. -/
def logits (t : Fin 32768) : Fin 16 → EReal := fun e => ∑ k : Fin 2048, X t k * W e k

/-- Token `t`'s sixteen probabilities. -/
def probs (t : Fin 32768) : Fin 16 → EReal := softmaxRow (logits X W t)

/-- Whether entry `e` of a row of probabilities falls strictly below half the row's largest entry. -/
def below (p : Fin 16 → EReal) (e : Fin 16) : BitVec 1 := Ideal.cmp .olt (p e) (rowTop p * halfW)

/-- The weight of expert `e` for token `t`: 0 if its probability is below half the row's top, else 1. -/
def mask (t : Fin 32768) (e : Fin 16) : EReal := Scalar.select (below (probs X W t) e) zeroW oneW

/-- The same weight with the kept value spelled `1 + p − p`. -/
def maskThrough (t : Fin 32768) (e : Fin 16) : EReal :=
  Scalar.select (below (probs X W t) e) zeroW (oneW + probs X W t e - probs X W t e)

/-- How many tokens keep expert `e`, and its total probability. -/
def maskSum (e : Fin 16) : EReal := ∑ t : Fin 32768, mask X W t e
def maskThroughSum (e : Fin 16) : EReal := ∑ t : Fin 32768, maskThrough X W t e
def probSum (e : Fin 16) : EReal := ∑ t : Fin 32768, probs X W t e

/-- The loss with the scale folded into one factor. -/
def lossFolded : EReal := (∑ e : Fin 16, maskSum X W e * R e * probSum X W e) * scaleW

/-- The loss over the two means, multiplied back by the token count and then by the weight. -/
def lossMeans : EReal :=
  (∑ e : Fin 16, Ideal.div (maskThroughSum X W e) tokensW * R e * Ideal.div (probSum X W e) tokensW) * tokensW * weightW

end

end Cert.Gate

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.KernelRead.lean ====
/-
  The body's arithmetic read entry by entry over the extended reals.

  For a block `x` of 1024 token rows and the 16 expert rows `w`:
  the probabilities at `(p, q)` are entry `q` of the softmax of row `p`'s sixteen scores `∑ₖ x (p, k) · w (e, k)` (a change of
  float format is the identity, the transposed expert rows read `w (e, k)` at `(k, e)`, and a product into a zero accumulator
  is the plain sum); the weight at `(p, q)` is 0 when that probability is strictly below half the row's largest and 1
  otherwise; an accumulator row gains, in column `q`, the sum over the block's 1024 rows; and the copy of an accumulator
  row into eight rows reads the row in each of them.
-/
import proofs.«116905_j29575144800914_2_alg».proof.Proof.Gen.KernelIdeal.Skeleton
import proofs.«116905_j29575144800914_2_alg».proof.Proof.Spec
import proofs.«116905_j29575144800914_2_alg».proof.Proof.LibPlainDot
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx

namespace Cert.KernelIdeal.GateValue

open Cert.KernelIdeal Cert.KernelIdeal.Gen Cert.Lib Cert.Gate

/-- Row `p` of a block of tokens scored against the sixteen expert rows. -/
def blockLogits (x : FVec Ideal S1024x2048 .f32) (w : FVec Ideal S16x2048 .f32) (p : Fin 1024) : Fin 16 → EReal :=
  fun e => ∑ k : Fin 2048, x (ix2 p k) * w (ix2 e k)

/-- The probabilities of a block: the softmax of each row's scores. -/
theorem probs_apply (x : FVec Ideal S1024x2048 .f32) (w : FVec Ideal S16x2048 .f32) (p : Fin 1024) (q : Fin 16) :
    k0_pay7 (F := Ideal) x w (ix2 p q) = softmaxRow (blockLogits x w p) q := by
  unfold k0_pay7
  refine (kernel_softmaxRows (M := 1024) (C := 16) _ reduces_S1024x16_S1024 (.inl rfl) rfl rfl
    shapeCasts_S1024_S1024x1 broadcasts_S1024x1_S1024x16 p q).trans ?_
  refine congrArg (fun s => softmaxRow s q) (funext fun e => ?_)
  refine (matmul_plain_zero_apply (M := 1024) (K := 2048) (N := 16) none _ _ p e).trans ?_
  refine Finset.sum_congr rfl fun k _ => ?_
  exact congrArg (x (ix2 p k) * ·) (transpose_ix2_apply _ transposes_S16x2048_p1_0_S2048x16 k e)

/-- A printed f32 word read as a scalar is the word's value, whatever the word. -/
theorem scalar_ofBits_f32 (b : BitVec 32) : Scalar.ofBits (F := Ideal) .f32 b = Ideal.ofBits .f32 b := rfl

/-- Half the largest probability of row `p`, as the body computes it: the row maximum kept as a column, halved, and
    broadcast back over the row. -/
theorem threshold_apply (v : FVec Ideal S1024x16 .f32) (p : Fin 1024) (q : Fin 16) :
    broadcastTo S1024x16 (mulf (shapeCast S1024x1
          (multiReduction .maximumf [1] S1024 v 0xFF800000#32 reduces_S1024x16_S1024 (.inl rfl) rfl)
          shapeCasts_S1024_S1024x1) (broadcast S1024x1 (Scalar.ofBits (F := Ideal) .f32 0x3F000000#32)))
        broadcasts_S1024x1_S1024x16 (ix2 p q)
      = rowTop (fun e => v (ix2 p e)) * halfW := by
  refine (Cert.LibKeepdims.broadcastTo_a1_ab_apply _ broadcasts_S1024x1_S1024x16 p q).trans ?_
  refine (mulf_apply _ _ _).trans ?_
  refine congrArg₂ (· * ·) ?_ ((broadcast_apply _ _).trans (scalar_ofBits_f32 _))
  refine (Cert.LibKeepdims.shapeCast_a_a1_apply _ shapeCasts_S1024_S1024x1 p (0 : Fin 1)).trans ?_
  refine (Ideal.multiReduction_maximumf_single _ _ reduces_S1024x16_S1024 (.inl rfl) rfl (ix1 p)).trans ?_
  exact congrArg (fun f => (Finset.univ : Finset (Fin 16)).fold max (Ideal.ofBits .f32 0xFF800000#32) f)
    (funext fun k => congrArg v (lift_lane reduces_S1024x16_S1024 p k))

/-- The weights of a block: each probability compared with half its row's largest. -/
theorem weights_apply (x : FVec Ideal S1024x2048 .f32) (w : FVec Ideal S16x2048 .f32) (p : Fin 1024) (q : Fin 16) :
    k0_pay8 (F := Ideal) x w (ix2 p q)
      = Scalar.select (below (fun e => k0_pay7 (F := Ideal) x w (ix2 p e)) q) zeroW oneW := by
  unfold k0_pay8 below
  dsimp only
  refine (select_apply _ _ _ _).trans ?_
  refine congr (congr (congrArg Scalar.select ?_) ?_) ?_
  · refine (cmpf_apply _ _ _ _).trans ?_
    refine (Ideal.cmpf_def _ _ _).trans ?_
    exact congrArg (Ideal.cmp .olt (k0_pay7 (F := Ideal) x w (ix2 p q))) (threshold_apply (k0_pay7 (F := Ideal) x w) p q)
  · exact (broadcast_apply _ _).trans (scalar_ofBits_f32 _)
  · exact (broadcast_apply _ _).trans (scalar_ofBits_f32 _)

/-- Column `q` with row `k` put back is the index `(k, q)`. -/
theorem lift_row (h : S1024x16.Reduces [(0 : Fin 2)] S16) (q : Fin 16) (k : Fin (S1024x16.size 0)) :
    h.lift (ix1 q) k = ix2 (⟨k.val, k.isLt⟩ : Fin 1024) q := by
  funext c; apply Fin.ext
  fin_cases c <;> rfl

/-- An accumulator row plus the column sums of a block, read in column `q`. -/
theorem addColSums_apply (v : FVec Ideal S1024x16 .f32) (s : FVec Ideal S1x16 .f32) (q : Fin 16) :
    addf s (shapeCast S1x16 (multiReduction .add [0] S16 v 0x00000000#32 reduces_S1024x16_S16 (.inl rfl) rfl)
        shapeCasts_S16_S1x16) (ix2 (0 : Fin 1) q)
      = s (ix2 (0 : Fin 1) q) + ∑ p : Fin 1024, v (ix2 p q) := by
  show s (ix2 (0 : Fin 1) q) + shapeCast S1x16 _ shapeCasts_S16_S1x16 (ix2 (0 : Fin 1) q) = _
  refine congrArg (s (ix2 (0 : Fin 1) q) + ·) ?_
  refine (shapeCast_a_1a_apply _ shapeCasts_S16_S1x16 (0 : Fin 1) q).trans ?_
  refine (Ideal.multiReduction_add_single _ _ reduces_S1024x16_S16 (.inl rfl) rfl (ix1 q)).trans ?_
  exact Finset.sum_congr rfl fun k _ => congrArg v (lift_row reduces_S1024x16_S16 q k)

/-- The count accumulator's update. -/
theorem count_apply (x : FVec Ideal S1024x2048 .f32) (w : FVec Ideal S16x2048 .f32) (s : FVec Ideal S1x16 .f32) (q : Fin 16) :
    k0_pay1 (F := Ideal) (k0_pay9 (F := Ideal) x w s) (ix2 (0 : Fin 1) q)
      = s (ix2 (0 : Fin 1) q) + ∑ p : Fin 1024, k0_pay8 (F := Ideal) x w (ix2 p q) := by
  unfold k0_pay1
  refine (congrFun (shapeCast_self _ shapeCasts_S1x16_S1x16) _).trans ?_
  unfold k0_pay9
  exact addColSums_apply (k0_pay8 (F := Ideal) x w) s q

/-- The probability accumulator's update. -/
theorem mass_apply (v : FVec Ideal S1024x16 .f32) (s : FVec Ideal S1x16 .f32) (q : Fin 16) :
    k0_pay2 (F := Ideal) v s (ix2 (0 : Fin 1) q) = s (ix2 (0 : Fin 1) q) + ∑ p : Fin 1024, v (ix2 p q) := by
  unfold k0_pay2
  refine (congrFun (shapeCast_self _ shapeCasts_S1x16_S1x16) _).trans ?_
  exact addColSums_apply v s q

/-- The row an accumulator is reset to is zero in every column. -/
theorem reset_count_apply (q : Fin 16) : k0_pay5 (F := Ideal) (ix2 (0 : Fin 1) q) = 0 := by
  unfold k0_pay5
  refine (congrFun (shapeCast_self _ shapeCasts_S1x16_S1x16) _).trans ?_
  exact ((broadcast_apply _ _).trans (scalar_ofBits_f32 _)).trans Ideal.ofBits_zero_f32

theorem reset_mass_apply (q : Fin 16) : k0_pay6 (F := Ideal) (ix2 (0 : Fin 1) q) = 0 := by
  unfold k0_pay6
  refine (congrFun (shapeCast_self _ shapeCasts_S1x16_S1x16) _).trans ?_
  exact ((broadcast_apply _ _).trans (scalar_ofBits_f32 _)).trans Ideal.ofBits_zero_f32

/-- An accumulator row copied into the eight rows of a core's block reads the row in each of them. -/
theorem countOut_apply (s : FVec Ideal S1x16 .f32) (r : Fin 8) (q : Fin 16) :
    k0_pay3 (F := Ideal) s (ix3 (0 : Fin 1) r q) = s (ix2 (0 : Fin 1) q) := by
  unfold k0_pay3
  refine (shapeCast_ab_1ab_apply _ shapeCasts_S8x16_S1x8x16 (0 : Fin 1) r q).trans ?_
  refine (broadcastTo_1b_ab_apply _ broadcasts_S1x16_S8x16 r q).trans ?_
  exact congrFun (shapeCast_self _ shapeCasts_S1x16_S1x16) _

theorem massOut_apply (s : FVec Ideal S1x16 .f32) (r : Fin 8) (q : Fin 16) :
    k0_pay4 (F := Ideal) s (ix3 (0 : Fin 1) r q) = s (ix2 (0 : Fin 1) q) := by
  unfold k0_pay4
  refine (shapeCast_ab_1ab_apply _ shapeCasts_S8x16_S1x8x16 (0 : Fin 1) r q).trans ?_
  refine (broadcastTo_1b_ab_apply _ broadcasts_S1x16_S8x16 r q).trans ?_
  exact congrFun (shapeCast_self _ shapeCasts_S1x16_S1x16) _

/-! ## A block's rows are tokens' rows

  When row `p` of the block `x` is token `T`'s row of the whole array `X`, and the block of expert rows is the whole `W`,
  the row's scores, probabilities and weights are the token's. -/

theorem blockLogits_of_rows (x : FVec Ideal S1024x2048 .f32) (w : FVec Ideal S16x2048 .f32)
    (X : Fin 32768 → Fin 2048 → EReal) (W : Fin 16 → Fin 2048 → EReal) (T : Fin 32768) (p : Fin 1024)
    (hx : ∀ k, x (ix2 p k) = X T k) (hw : ∀ e k, w (ix2 e k) = W e k) : blockLogits x w p = logits X W T := by
  funext e
  unfold blockLogits logits
  exact Finset.sum_congr rfl fun k _ => by rw [hx k, hw e k]

theorem probs_of_rows (x : FVec Ideal S1024x2048 .f32) (w : FVec Ideal S16x2048 .f32)
    (X : Fin 32768 → Fin 2048 → EReal) (W : Fin 16 → Fin 2048 → EReal) (T : Fin 32768) (p : Fin 1024)
    (hx : ∀ k, x (ix2 p k) = X T k) (hw : ∀ e k, w (ix2 e k) = W e k) (q : Fin 16) :
    k0_pay7 (F := Ideal) x w (ix2 p q) = probs X W T q := by
  rw [probs_apply, blockLogits_of_rows x w X W T p hx hw]
  rfl

theorem weights_of_rows (x : FVec Ideal S1024x2048 .f32) (w : FVec Ideal S16x2048 .f32)
    (X : Fin 32768 → Fin 2048 → EReal) (W : Fin 16 → Fin 2048 → EReal) (T : Fin 32768) (p : Fin 1024)
    (hx : ∀ k, x (ix2 p k) = X T k) (hw : ∀ e k, w (ix2 e k) = W e k) (q : Fin 16) :
    k0_pay8 (F := Ideal) x w (ix2 p q) = mask X W T q := by
  rw [weights_apply, show (fun e => k0_pay7 (F := Ideal) x w (ix2 p e)) = probs X W T from
    funext fun e => probs_of_rows x w X W T p hx hw e]
  rfl

end Cert.KernelIdeal.GateValue

end
-- ==== Proof.KernelSums.lean ====
/-
  The accumulators as sums over tokens.

  Grid point `t` (0 … 31) works on the block of 1024 consecutive tokens starting at token `1024·t`, against all 16 expert
  rows.  So the block's column sums of weights (of probabilities) are sums over those tokens of the tokens' own weights
  (probabilities), and after point `n` the count accumulator holds the sum over the blocks `16·(n/16) … n` of the core's
  current run: by induction on the point, the restart at the points divisible by 16 being where the run begins.
-/
import proofs.«116905_j29575144800914_2_alg».proof.Proof.KernelChain
import proofs.«116905_j29575144800914_2_alg».proof.Proof.KernelRead

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen Cert.Lib Cert.Gate

variable (m : (ℓ : Loc nD τ sig) → Buf (Elt Ideal) ℓ)

/-- Row `p` of block `b` is token `1024·b + p` (read modulo the token count, so that it is a token for every `b`). -/
def tok (b : ℕ) (p : Fin 1024) : Fin 32768 := ⟨(1024 * b + p.val) % 32768, Nat.mod_lt _ (by decide)⟩

/-- The token and expert arrays as the region finds them, by coordinates. -/
abbrev Xa (c : Dev nD) : Fin 32768 → Fin 2048 → EReal := cur2 (V m c main_arg0)
abbrev Wa (c : Dev nD) : Fin 16 → Fin 2048 → EReal := cur2 (V m c main_arg1)

/-- The printed index maps, decided once over the 32 grid points: the token window and the weights window are at block
    row `t`, the expert window stays put, and the two partial-sum windows are at the core's block `t / 16`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- The token block at point `t` holds, in row `p`, token `1024·t + p`'s row. -/
theorem tokenBlock_apply (c : Dev nD) (t : Fin cfg0.N) (p : Fin 1024) (k : Fin 2048) :
    (iblk m c 0 t : FVec Ideal S1024x2048 .f32) (ix2 p k) = Xa m c (tok t.val p) k := by
  show V m c main_arg0 (((cfg0.win 0).blk t).view.emb (ix2 p k)) = V m c main_arg0 (ix2 (tok t.val p) k)
  refine congrArg (V m c main_arg0) (funext fun a => Fin.ext ?_)
  obtain ⟨e0, e1, -⟩ := idx_facts t
  have hN : t.val < 32 := lt_of_lt_of_eq t.isLt (show cfg0.N = 32 from N_0)
  have hp : p.val < 1024 := p.isLt
  match a with
  | ⟨0, _⟩ => show win0_0.index t (0 : Fin 2) * 1024 + 1 * p.val = (1024 * t.val + p.val) % 32768; omega
  | ⟨1, _⟩ => show win0_0.index t (1 : Fin 2) * 2048 + 1 * k.val = k.val; omega

/-- The expert block at every point is the whole expert array. -/
theorem expertBlock_apply (c : Dev nD) (t : Fin cfg0.N) (e : Fin 16) (k : Fin 2048) :
    (iblk m c 1 t : FVec Ideal S16x2048 .f32) (ix2 e k) = Wa m c e k := by
  show V m c main_arg1 (((cfg0.win 1).blk t).view.emb (ix2 e k)) = V m c main_arg1 (ix2 e k)
  refine congrArg (V m c main_arg1) (funext fun a => Fin.ext ?_)
  obtain ⟨-, -, e0, e1, -⟩ := idx_facts t
  match a with
  | ⟨0, _⟩ => show win0_1.index t (0 : Fin 2) * 16 + 1 * e.val = e.val; omega
  | ⟨1, _⟩ => show win0_1.index t (1 : Fin 2) * 2048 + 1 * k.val = k.val; omega

/-- The weights and the probabilities of block `b`, summed down column `q`. -/
def blockCount (c : Dev nD) (b : ℕ) (q : Fin 16) : EReal := ∑ p : Fin 1024, mask (Xa m c) (Wa m c) (tok b p) q
def blockMass (c : Dev nD) (b : ℕ) (q : Fin 16) : EReal := ∑ p : Fin 1024, probs (Xa m c) (Wa m c) (tok b p) q

set_option maxHeartbeats 4000000 in
/-- The body's weights at point `t`, entry by entry, are the tokens' weights. -/
theorem pointWeights_apply (c : Dev nD) (t : Fin cfg0.N) (p : Fin 1024) (q : Fin 16) :
    k0_pay8 (F := Ideal) (iblk m c 0 t) (iblk m c 1 t) (ix2 p q) = mask (Xa m c) (Wa m c) (tok t.val p) q :=
  weights_of_rows (iblk m c 0 t) (iblk m c 1 t) (Xa m c) (Wa m c) (tok t.val p) p
    (fun k => tokenBlock_apply m c t p k) (fun e k => expertBlock_apply m c t e k) q

set_option maxHeartbeats 4000000 in
/-- The body's probabilities at point `t`, entry by entry, are the tokens' probabilities. -/
theorem pointProbs_apply (c : Dev nD) (t : Fin cfg0.N) (p : Fin 1024) (q : Fin 16) :
    k0_pay7 (F := Ideal) (iblk m c 0 t) (iblk m c 1 t) (ix2 p q) = probs (Xa m c) (Wa m c) (tok t.val p) q :=
  probs_of_rows (iblk m c 0 t) (iblk m c 1 t) (Xa m c) (Wa m c) (tok t.val p) p
    (fun k => tokenBlock_apply m c t p k) (fun e k => expertBlock_apply m c t e k) q

/-- The accumulators after a restart and after a step, read in column `q`, over any block. -/
theorem startAcc_apply (x : FVec Ideal S1024x2048 .f32) (w : FVec Ideal S16x2048 .f32) (q : Fin 16) :
    (startAcc (F := Ideal) x w).1 (ix2 (0 : Fin 1) q) = ∑ p : Fin 1024, k0_pay8 (F := Ideal) x w (ix2 p q)
      ∧ (startAcc (F := Ideal) x w).2 (ix2 (0 : Fin 1) q) = ∑ p : Fin 1024, k0_pay7 (F := Ideal) x w (ix2 p q) := by
  constructor
  · refine (count_apply x w (k0_pay5 (F := Ideal)) q).trans ?_
    rw [reset_count_apply, zero_add]
  · refine (mass_apply (k0_pay7 (F := Ideal) x w) (k0_pay6 (F := Ideal)) q).trans ?_
    rw [reset_mass_apply, zero_add]

theorem stepAcc_apply (x : FVec Ideal S1024x2048 .f32) (w : FVec Ideal S16x2048 .f32)
    (a : FVec Ideal S1x16 .f32 × FVec Ideal S1x16 .f32) (q : Fin 16) :
    (stepAcc (F := Ideal) x w a).1 (ix2 (0 : Fin 1) q)
        = a.1 (ix2 (0 : Fin 1) q) + ∑ p : Fin 1024, k0_pay8 (F := Ideal) x w (ix2 p q)
      ∧ (stepAcc (F := Ideal) x w a).2 (ix2 (0 : Fin 1) q)
        = a.2 (ix2 (0 : Fin 1) q) + ∑ p : Fin 1024, k0_pay7 (F := Ideal) x w (ix2 p q) :=
  ⟨count_apply x w a.1 q, mass_apply (k0_pay7 (F := Ideal) x w) a.2 q⟩

set_option maxHeartbeats 4000000 in
/-- After a core's first point the accumulators hold that block's sums; -/
theorem accs_first (c : Dev nD) (t : Fin cfg0.N) (h0 : t.val % 16 = 0) (q : Fin 16) :
    (accs m c t.val t.isLt).1 (ix2 (0 : Fin 1) q) = blockCount m c t.val q
      ∧ (accs m c t.val t.isLt).2 (ix2 (0 : Fin 1) q) = blockMass m c t.val q := by
  rw [accs_start m c t h0]
  obtain ⟨h1, h2⟩ := startAcc_apply (iblk m c 0 t) (iblk m c 1 t) q
  exact ⟨h1.trans (Finset.sum_congr rfl fun p _ => pointWeights_apply m c t p q),
    h2.trans (Finset.sum_congr rfl fun p _ => pointProbs_apply m c t p q)⟩

set_option maxHeartbeats 4000000 in
/-- after a later point, what the point before left plus this block's sums. -/
theorem accs_later (c : Dev nD) (t : Fin cfg0.N) (h0 : ¬t.val % 16 = 0) (q : Fin 16) :
    (accs m c t.val t.isLt).1 (ix2 (0 : Fin 1) q)
        = (accs m c (t.val - 1) (Nat.lt_of_le_of_lt (Nat.sub_le _ _) t.isLt)).1 (ix2 (0 : Fin 1) q) + blockCount m c t.val q
      ∧ (accs m c t.val t.isLt).2 (ix2 (0 : Fin 1) q)
        = (accs m c (t.val - 1) (Nat.lt_of_le_of_lt (Nat.sub_le _ _) t.isLt)).2 (ix2 (0 : Fin 1) q) + blockMass m c t.val q := by
  rw [accs_step m c t h0]
  obtain ⟨h1, h2⟩ := stepAcc_apply (iblk m c 0 t) (iblk m c 1 t)
    (accs m c (t.val - 1) (Nat.lt_of_le_of_lt (Nat.sub_le _ _) t.isLt)) q
  exact ⟨h1.trans (congrArg (_ + ·) (Finset.sum_congr rfl fun p _ => pointWeights_apply m c t p q)),
    h2.trans (congrArg (_ + ·) (Finset.sum_congr rfl fun p _ => pointProbs_apply m c t p q))⟩

/-- So after point `n` the accumulators hold the sums over the blocks of the core's run so far. -/
theorem accs_apply (c : Dev nD) (q : Fin 16) : ∀ (n : ℕ) (h : n < cfg0.N),
    (accs m c n h).1 (ix2 (0 : Fin 1) q) = ∑ j ∈ Finset.range (n % 16 + 1), blockCount m c (16 * (n / 16) + j) q
      ∧ (accs m c n h).2 (ix2 (0 : Fin 1) q) = ∑ j ∈ Finset.range (n % 16 + 1), blockMass m c (16 * (n / 16) + j) q := by
  intro n
  induction n with
  | zero =>
    intro h
    obtain ⟨h1, h2⟩ := accs_first m c ⟨0, h⟩ (Nat.zero_mod _) q
    exact ⟨h1.trans (by simp), h2.trans (by simp)⟩
  | succ n ih =>
    intro h
    by_cases h0 : (n + 1) % 16 = 0
    · obtain ⟨h1, h2⟩ := accs_first m c ⟨n + 1, h⟩ h0 q
      have e : 16 * ((n + 1) / 16) + 0 = n + 1 := by omega
      rw [h0, zero_add, Finset.sum_range_one, Finset.sum_range_one, e]
      exact ⟨h1, h2⟩
    · obtain ⟨h1, h2⟩ := accs_later m c ⟨n + 1, h⟩ h0 q
      obtain ⟨i1, i2⟩ := ih (Nat.lt_of_succ_lt h)
      have e1 : (n + 1) % 16 = n % 16 + 1 := by omega
      have e2 : (n + 1) / 16 = n / 16 := by omega
      have e3 : 16 * (n / 16) + (n % 16 + 1) = n + 1 := by omega
      rw [e1, e2, Finset.sum_range_succ, Finset.sum_range_succ (fun j => blockMass m c (16 * (n / 16) + j) q), e3]
      exact ⟨h1.trans (congrArg (· + blockCount m c (n + 1) q) i1), h2.trans (congrArg (· + blockMass m c (n + 1) q) i2)⟩

end Cert.KernelIdeal.GateValue

end
-- ==== Proof.KernelArrays.lean ====
/-
  The three output arrays after the run.

  The weights window writes block row `t` back at every point, so the 32 blocks tile the [32768, 16] array and it ends
  holding every token's weights.  Each partial-sum window writes its core's [1, 8, 16] block back once, after the core's
  last point (points 15 and 31), when the accumulator holds the sum over the core's 16 blocks; the two blocks tile the
  [2, 8, 16] array, whose entry `(c, r, q)` is the sum over core `c`'s 16·1024 tokens, whatever the row `r`.
-/
import proofs.«116905_j29575144800914_2_alg».proof.Proof.KernelSums

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen Cert.Lib Cert.Gate

variable (m : (ℓ : Loc nD τ sig) → Buf (Elt Ideal) ℓ)

/-! ## The weights -/

/-- Every token's weights. -/
def weightsArr (c : Dev nD) : S32768x16.Idx → EReal := fun i => mask (Xa m c) (Wa m c) (i 0) (i 1)

set_option maxHeartbeats 4000000 in
/-- What point `t` writes back is block row `t` of it. -/
theorem weights_flushed (c : Dev nD) (t : Fin cfg0.N) :
    (dats m 0 c).flushed 3 t = ((cfg0.win 3).blk t).view.read (Elt Ideal) (weightsArr m c) := by
  show (cfg0.win 3).cut (grid0.coords t) ((dats m 0 c).after 3 t) = _
  rw [after0_3, weights_eq]
  funext j
  obtain ⟨p, q, rfl⟩ : ∃ (p : Fin 1024) (q : Fin 16), j = ix2 p q := ⟨j 0, j 1, eq_ix2 j⟩
  show k0_pay8 (F := Ideal) (iblk m c 0 t) (iblk m c 1 t) (ix2 p q)
    = weightsArr m c (((cfg0.win 3).blk t).view.emb (ix2 p q))
  rw [pointWeights_apply]
  have he : ((cfg0.win 3).blk t).view.emb (ix2 p q) = ix2 (tok t.val p) q := by
    funext a; apply Fin.ext
    obtain ⟨-, -, -, -, e0, e1, -⟩ := idx_facts t
    have hN : t.val < 32 := lt_of_lt_of_eq t.isLt (show cfg0.N = 32 from N_0)
    have hp : p.val < 1024 := p.isLt
    match a with
    | ⟨0, _⟩ => show win0_3.index t (0 : Fin 2) * 1024 + 1 * p.val = (1024 * t.val + p.val) % 32768; omega
    | ⟨1, _⟩ => show win0_3.index t (1 : Fin 2) * 16 + 1 * q.val = q.val; omega
  rw [he]
  rfl

/-- An index of the weights array is in point `t`'s block iff each coordinate is in the block's range on its axis. -/
theorem mem_weightsBlock (t : Fin cfg0.N) (i : S32768x16.Idx) :
    i ∈ ((cfg0.win 3).blk t).view.set ↔ ∀ a : Fin 2, win0_3.index t a * S1024x16.size a ≤ (i a).val ∧ (i a).val < win0_3.index t a * S1024x16.size a + S1024x16.size a := by
  show i ∈ ((View.whole main_v1_0).slice (win0_3.rect t)).set ↔ _
  rw [View.set_slice_whole, Rect.mem_set_unit]
  exact Iff.rfl

/-- Token row `T` is in the block of point `T / 1024`. -/
theorem weights_cover (i : S32768x16.Idx) :
    ∃ t : Fin cfg0.N, (cfg0.win 3).flush t = true ∧ i ∈ ((cfg0.win 3).blk t).view.set := by
  have hi0 : (i 0).val < 32768 := (i 0).isLt
  have hi1 : (i 1).val < 16 := (i 1).isLt
  have hlt : (i 0).val / 1024 < cfg0.N := by rw [show cfg0.N = 32 from N_0]; omega
  refine ⟨⟨(i 0).val / 1024, hlt⟩, flush0_3 _, ?_⟩
  rw [mem_weightsBlock]
  obtain ⟨-, -, -, -, e0, e1, -⟩ := idx_facts ⟨(i 0).val / 1024, hlt⟩
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    rw [e0]; dsimp only; omega
  | ⟨1, _⟩ =>
    show win0_3.index ⟨(i 0).val / 1024, hlt⟩ (1 : Fin 2) * 16 ≤ (i 1).val ∧ (i 1).val < win0_3.index ⟨(i 0).val / 1024, hlt⟩ (1 : Fin 2) * 16 + 16
    rw [e1]; omega

/-- The weights array ends holding every token's weights. -/
theorem weights_final (c : Dev nD) : (dats m 0 c).arrAt 3 cfg0.N = weightsArr m c :=
  (dats m 0 c).arrAt_eq_of_cover 3 (weightsArr m c) (fun t _ => weights_flushed m c t) weights_cover

/-! ## The partial sums -/

/-- Core `c'`'s count of kept tokens and probability mass for expert `q`: the sums over its 16 blocks. -/
def coreCount (c : Dev nD) (c' : ℕ) (q : Fin 16) : EReal := ∑ j ∈ Finset.range 16, blockCount m c (16 * c' + j) q
def coreMass (c : Dev nD) (c' : ℕ) (q : Fin 16) : EReal := ∑ j ∈ Finset.range 16, blockMass m c (16 * c' + j) q

/-- The two partial-sum arrays: entry `(c', r, q)` is core `c'`'s sum for expert `q`, in every row `r`. -/
def countsArr (c : Dev nD) : S2x8x16.Idx → EReal := fun i => coreCount m c (i 0).val (i 2)
def massArr (c : Dev nD) : S2x8x16.Idx → EReal := fun i => coreMass m c (i 0).val (i 2)

/-- Where a core's block sits in the partial-sum arrays. -/
theorem sumsBlock_emb4 (t : Fin cfg0.N) (r : Fin 8) (q : Fin 16) (a : Fin 3) :
    ((((cfg0.win 4).blk t).view.emb (ix3 (0 : Fin 1) r q)) a).val = (![t.val / 16, r.val, q.val] : Fin 3 → ℕ) a := by
  obtain ⟨-, -, -, -, -, -, e0, e1, e2, -⟩ := idx_facts t
  match a with
  | ⟨0, _⟩ => show win0_4.index t (0 : Fin 3) * 1 + 1 * 0 = t.val / 16; omega
  | ⟨1, _⟩ => show win0_4.index t (1 : Fin 3) * 8 + 1 * r.val = r.val; omega
  | ⟨2, _⟩ => show win0_4.index t (2 : Fin 3) * 16 + 1 * q.val = q.val; omega

theorem sumsBlock_emb5 (t : Fin cfg0.N) (r : Fin 8) (q : Fin 16) (a : Fin 3) :
    ((((cfg0.win 5).blk t).view.emb (ix3 (0 : Fin 1) r q)) a).val = (![t.val / 16, r.val, q.val] : Fin 3 → ℕ) a := by
  obtain ⟨-, -, -, -, -, -, -, -, -, e0, e1, e2⟩ := idx_facts t
  match a with
  | ⟨0, _⟩ => show win0_5.index t (0 : Fin 3) * 1 + 1 * 0 = t.val / 16; omega
  | ⟨1, _⟩ => show win0_5.index t (1 : Fin 3) * 8 + 1 * r.val = r.val; omega
  | ⟨2, _⟩ => show win0_5.index t (2 : Fin 3) * 16 + 1 * q.val = q.val; omega

set_option maxHeartbeats 4000000 in
/-- What a core's last point writes back is the core's block of the counts. -/
theorem counts_flushed (c : Dev nD) (t : Fin cfg0.N) (hf : (cfg0.win 4).flush t = true) :
    (dats m 0 c).flushed 4 t = ((cfg0.win 4).blk t).view.read (Elt Ideal) (countsArr m c) := by
  have h1 : t.val % 16 = 15 := (flush0_4 t).mp hf
  show (cfg0.win 4).cut (grid0.coords t) ((dats m 0 c).after 4 t) = _
  rw [after0_4, (sums_eq m c t h1).1]
  funext j
  obtain ⟨u, r, q, rfl⟩ : ∃ (u : Fin 1) (r : Fin 8) (q : Fin 16), j = ix3 u r q := ⟨j 0, j 1, j 2, eq_ix3 j⟩
  obtain rfl : u = 0 := Subsingleton.elim _ _
  show k0_pay3 (F := Ideal) (accs m c t.val t.isLt).1 (ix3 (0 : Fin 1) r q)
    = countsArr m c (((cfg0.win 4).blk t).view.emb (ix3 (0 : Fin 1) r q))
  rw [countOut_apply, (accs_apply m c q t.val t.isLt).1, h1]
  show _ = coreCount m c ((((cfg0.win 4).blk t).view.emb (ix3 (0 : Fin 1) r q)) 0).val ((((cfg0.win 4).blk t).view.emb (ix3 (0 : Fin 1) r q)) 2)
  rw [show ((((cfg0.win 4).blk t).view.emb (ix3 (0 : Fin 1) r q)) 0).val = t.val / 16 from sumsBlock_emb4 t r q 0,
    show (((cfg0.win 4).blk t).view.emb (ix3 (0 : Fin 1) r q)) 2 = q from Fin.ext (sumsBlock_emb4 t r q 2)]
  rfl

set_option maxHeartbeats 4000000 in
/-- What a core's last point writes back is the core's block of the probability masses. -/
theorem mass_flushed (c : Dev nD) (t : Fin cfg0.N) (hf : (cfg0.win 5).flush t = true) :
    (dats m 0 c).flushed 5 t = ((cfg0.win 5).blk t).view.read (Elt Ideal) (massArr m c) := by
  have h1 : t.val % 16 = 15 := (flush0_5 t).mp hf
  show (cfg0.win 5).cut (grid0.coords t) ((dats m 0 c).after 5 t) = _
  rw [after0_5, (sums_eq m c t h1).2]
  funext j
  obtain ⟨u, r, q, rfl⟩ : ∃ (u : Fin 1) (r : Fin 8) (q : Fin 16), j = ix3 u r q := ⟨j 0, j 1, j 2, eq_ix3 j⟩
  obtain rfl : u = 0 := Subsingleton.elim _ _
  show k0_pay4 (F := Ideal) (accs m c t.val t.isLt).2 (ix3 (0 : Fin 1) r q)
    = massArr m c (((cfg0.win 5).blk t).view.emb (ix3 (0 : Fin 1) r q))
  rw [massOut_apply, (accs_apply m c q t.val t.isLt).2, h1]
  show _ = coreMass m c ((((cfg0.win 5).blk t).view.emb (ix3 (0 : Fin 1) r q)) 0).val ((((cfg0.win 5).blk t).view.emb (ix3 (0 : Fin 1) r q)) 2)
  rw [show ((((cfg0.win 5).blk t).view.emb (ix3 (0 : Fin 1) r q)) 0).val = t.val / 16 from sumsBlock_emb5 t r q 0,
    show (((cfg0.win 5).blk t).view.emb (ix3 (0 : Fin 1) r q)) 2 = q from Fin.ext (sumsBlock_emb5 t r q 2)]
  rfl

theorem mem_countsBlock (t : Fin cfg0.N) (i : S2x8x16.Idx) :
    i ∈ ((cfg0.win 4).blk t).view.set ↔ ∀ a : Fin 3, win0_4.index t a * S1x8x16.size a ≤ (i a).val ∧ (i a).val < win0_4.index t a * S1x8x16.size a + S1x8x16.size a := by
  show i ∈ ((View.whole main_v1_1).slice (win0_4.rect t)).set ↔ _
  rw [View.set_slice_whole, Rect.mem_set_unit]
  exact Iff.rfl

theorem mem_massBlock (t : Fin cfg0.N) (i : S2x8x16.Idx) :
    i ∈ ((cfg0.win 5).blk t).view.set ↔ ∀ a : Fin 3, win0_5.index t a * S1x8x16.size a ≤ (i a).val ∧ (i a).val < win0_5.index t a * S1x8x16.size a + S1x8x16.size a := by
  show i ∈ ((View.whole main_v1_2).slice (win0_5.rect t)).set ↔ _
  rw [View.set_slice_whole, Rect.mem_set_unit]
  exact Iff.rfl

/-- Core `c'`'s block is the one its last point, `16·c' + 15`, writes back. -/
theorem counts_cover (i : S2x8x16.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 16 := (i 2).isLt
  have hlt : 16 * (i 0).val + 15 < cfg0.N := by rw [show cfg0.N = 32 from N_0]; omega
  refine ⟨⟨16 * (i 0).val + 15, hlt⟩, (flush0_4 _).mpr (by dsimp only; omega), ?_⟩
  rw [mem_countsBlock]
  obtain ⟨-, -, -, -, -, -, e0, e1, e2, -⟩ := idx_facts ⟨16 * (i 0).val + 15, hlt⟩
  intro a
  match a with
  | ⟨0, _⟩ =>
    show win0_4.index ⟨16 * (i 0).val + 15, hlt⟩ (0 : Fin 3) * 1 ≤ (i 0).val ∧ (i 0).val < win0_4.index ⟨16 * (i 0).val + 15, hlt⟩ (0 : Fin 3) * 1 + 1
    rw [e0]; dsimp only; omega
  | ⟨1, _⟩ =>
    show win0_4.index ⟨16 * (i 0).val + 15, hlt⟩ (1 : Fin 3) * 8 ≤ (i 1).val ∧ (i 1).val < win0_4.index ⟨16 * (i 0).val + 15, hlt⟩ (1 : Fin 3) * 8 + 8
    rw [e1]; omega
  | ⟨2, _⟩ =>
    show win0_4.index ⟨16 * (i 0).val + 15, hlt⟩ (2 : Fin 3) * 16 ≤ (i 2).val ∧ (i 2).val < win0_4.index ⟨16 * (i 0).val + 15, hlt⟩ (2 : Fin 3) * 16 + 16
    rw [e2]; omega

theorem mass_cover (i : S2x8x16.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 16 := (i 2).isLt
  have hlt : 16 * (i 0).val + 15 < cfg0.N := by rw [show cfg0.N = 32 from N_0]; omega
  refine ⟨⟨16 * (i 0).val + 15, hlt⟩, (flush0_5 _).mpr (by dsimp only; omega), ?_⟩
  rw [mem_massBlock]
  obtain ⟨-, -, -, -, -, -, -, -, -, e0, e1, e2⟩ := idx_facts ⟨16 * (i 0).val + 15, hlt⟩
  intro a
  match a with
  | ⟨0, _⟩ =>
    show win0_5.index ⟨16 * (i 0).val + 15, hlt⟩ (0 : Fin 3) * 1 ≤ (i 0).val ∧ (i 0).val < win0_5.index ⟨16 * (i 0).val + 15, hlt⟩ (0 : Fin 3) * 1 + 1
    rw [e0]; dsimp only; omega
  | ⟨1, _⟩ =>
    show win0_5.index ⟨16 * (i 0).val + 15, hlt⟩ (1 : Fin 3) * 8 ≤ (i 1).val ∧ (i 1).val < win0_5.index ⟨16 * (i 0).val + 15, hlt⟩ (1 : Fin 3) * 8 + 8
    rw [e1]; omega
  | ⟨2, _⟩ =>
    show win0_5.index ⟨16 * (i 0).val + 15, hlt⟩ (2 : Fin 3) * 16 ≤ (i 2).val ∧ (i 2).val < win0_5.index ⟨16 * (i 0).val + 15, hlt⟩ (2 : Fin 3) * 16 + 16
    rw [e2]; omega

/-- The two partial-sum arrays end holding the cores' sums. -/
theorem counts_final (c : Dev nD) : (dats m 0 c).arrAt 4 cfg0.N = countsArr m c :=
  (dats m 0 c).arrAt_eq_of_cover 4 (countsArr m c) (counts_flushed m c) counts_cover

theorem mass_final (c : Dev nD) : (dats m 0 c).arrAt 5 cfg0.N = massArr m c :=
  (dats m 0 c).arrAt_eq_of_cover 5 (massArr m c) (mass_flushed m c) mass_cover

end Cert.KernelIdeal.GateValue

end
-- ==== Proof.LibPairsByChunks.lean ====
/-
  The counting law behind the kernel: the adjacent pairs of a run of rows, grouped by chunks.

  Rows `0 … n − 1` with `n = (J + 1)(B + 1)` are cut into `J + 1` chunks of `B + 1` consecutive rows. There are `n − 1`
  adjacent pairs `(i, i + 1)`, named by their lower row `i`. Pair `i` lies inside one chunk unless `i` is a chunk's
  last row, in which case it joins that chunk to the next; so the pairs are the `B` inner pairs of each of the
  `J + 1` chunks together with the `J` joining pairs. Any quantity attached to the pairs and summed in a commutative
  monoid can therefore be summed either way. Nothing here needs more than commutativity and associativity of `+`, so
  it holds for sums of extended reals as they stand.
-/
import Idealize.ShloMosaic.Lib.ValueIdx

noncomputable section

open scoped BigOperators

namespace Cert.Lib

open Idealize.ShloMosaic Idealize.ShloMosaic.ValueIdx

/-- THE PAIRS BY CHUNKS: over the lower rows `i < J(B+1) + B` of the adjacent pairs, a sum is the sum over the chunks
    `k ≤ J` of the chunk's `B` inner pairs (lower row `(B+1)k + r`, `r < B`) plus the sum over the `J` joining pairs (lower
    row `(B+1)k + B`, `k < J`). -/
theorem sum_pairs_by_chunks {M : Type*} [AddCommMonoid M] (B J : ℕ) (G : ℕ → M) :
    ∑ i ∈ Finset.range (J * (B + 1) + B), G i
      = ∑ k ∈ Finset.range (J + 1), ∑ r ∈ Finset.range B, G ((B + 1) * k + r)
        + ∑ k ∈ Finset.range J, G ((B + 1) * k + B) := by
  induction J with
  | zero => simp
  | succ J ih =>
    have e : (J + 1) * (B + 1) + B = (J * (B + 1) + B) + (B + 1) := by ring
    have h1 : ∑ x ∈ Finset.range B, G (J * (B + 1) + B + (x + 1)) = ∑ r ∈ Finset.range B, G ((B + 1) * (J + 1) + r) :=
      Finset.sum_congr rfl fun x _ => congrArg G (by ring)
    have h2 : G (J * (B + 1) + B + 0) = G ((B + 1) * J + B) := congrArg G (by ring)
    rw [e, Finset.sum_range_add, ih, Finset.sum_range_succ' (fun x => G (J * (B + 1) + B + x)) B, h1, h2,
      Finset.sum_range_succ (fun k => ∑ r ∈ Finset.range B, G ((B + 1) * k + r)) (J + 1),
      Finset.sum_range_succ (fun k => G ((B + 1) * k + B)) J]
    abel

/-- A sum over every index of a shape `[1, a, b]` is the double sum over the two non-unit coordinates. -/
def idxEquiv1ab {a b : Nat} : (⟨3, ![1, a, b]⟩ : Shape).Idx ≃ Fin a × Fin b where
  toFun i := (i 1, i 2)
  invFun p := ix3 (⟨0, Nat.one_pos⟩ : Fin 1) p.1 p.2
  left_inv i := by
    funext d
    match d with
    | ⟨0, _⟩ => exact Fin.ext (by have h : (i 0).val < 1 := (i 0).isLt; show 0 = (i 0).val; omega)
    | ⟨1, _⟩ => rfl
    | ⟨2, _⟩ => rfl
  right_inv _ := rfl

theorem sum_idx_1ab {M : Type*} [AddCommMonoid M] {a b : Nat} (f : (⟨3, ![1, a, b]⟩ : Shape).Idx → M) :
    ∑ i, f i = ∑ p : Fin a, ∑ q : Fin b, f (ix3 (⟨0, Nat.one_pos⟩ : Fin 1) p q) := by
  rw [← Equiv.sum_comp (idxEquiv1ab (a := a) (b := b)).symm f, Fintype.sum_prod_type]
  rfl

/-- A sum over every index of a rank-1 shape is the sum over its coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

end Cert.Lib

end
-- ==== Proof.KernelTail.lean ====
/-
  The host operations that follow the region, read at the extended reals.

  Each of the two partial-sum arrays holds one [8, 16] block per core, every row of a block the same.  The program takes
  row 0 of each block (a slice and a reshape to [2, 16]), adds the two cores' rows entry by entry (a sum over axis 0 from
  zero), multiplies the first total by the rate and by the second total, adds the sixteen products (a sum from zero) and
  multiplies by one f32 word.  Read at an index this is
  `(∑ₑ (∑_c A₄ (c, 0, e)) · R e · (∑_c A₅ (c, 0, e))) · w`; the only law used is `0 + s = s`.
-/
import proofs.«116905_j29575144800914_2_alg».proof.Proof.Gen.KernelIdeal
import proofs.«116905_j29575144800914_2_alg».proof.Proof.Spec
import proofs.«116905_j29575144800914_2_alg».proof.Proof.LibPairsByChunks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GateValue

open Cert.KernelIdeal Cert.KernelIdeal.Gen Idealize.ShloMosaic Idealize.ShloMosaic.ValueIdx Cert.Lib Cert.Gate

/-- The scalar the program computes after the region, as the composition of its own operations. -/
def tailLoss (A4 A5 : FVec Ideal S2x8x16 .f32) (R : FVec Ideal S16 .f32) : FVec Ideal S_ .f32 :=
  mulf (Host.reduceAdd
      (mulf (mulf (Host.reduceAdd (shapeCast S2x16 (extractStridedSlice S2x1x16 ![0, 0, 0] A4 slices_S2x8x16_S2x1x16_0_0_0) shapeCasts_S2x1x16_S2x16)
              (constant (F := Ideal) S_ .f32 0x00000000#32) reducesTo_S2x16_S16_d0 h_S_) R)
        (Host.reduceAdd (shapeCast S2x16 (extractStridedSlice S2x1x16 ![0, 0, 0] A5 slices_S2x8x16_S2x1x16_0_0_0) shapeCasts_S2x1x16_S2x16)
              (constant (F := Ideal) S_ .f32 0x00000000#32) reducesTo_S2x16_S16_d0 h_S_))
      (constant (F := Ideal) S_ .f32 0x00000000#32) reducesTo_S16_S_d0 h_S_)
    (constant (F := Ideal) S_ .f32 0x34A3D70A#32)

/-- A printed word read at the scalar shape's one index is the word's value; the word is never evaluated. -/
theorem const_apply (b : BitVec 32) (i : S_.Idx) : constant (F := Ideal) S_ .f32 b i = Ideal.ofBits .f32 b := rfl

/-- The slice and the reshape read row 0 of block `c`. -/
theorem firstRows_apply (A : FVec Ideal S2x8x16 .f32) (c : Fin 2) (e : Fin 16) :
    shapeCast S2x16 (extractStridedSlice S2x1x16 ![0, 0, 0] A slices_S2x8x16_S2x1x16_0_0_0) shapeCasts_S2x1x16_S2x16 (ix2 c e)
      = A (ix3 c (0 : Fin 8) e) := by
  rw [shapeCast_apply _ shapeCasts_S2x1x16_S2x16 (ix2 c e) (ix3 c (0 : Fin 1) e) (by
    rw [Shape.rowMajor_val_three, Shape.rowMajor_val_two]
    show (c.val * 1 + 0) * 16 + e.val = c.val * 16 + e.val
    omega)]
  exact extractStridedSlice_apply _ A slices_S2x8x16_S2x1x16_0_0_0 (ix3 c (0 : Fin 1) e) (ix3 c (0 : Fin 8) e) (fun a => by
    match a with
    | ⟨0, _⟩ => show c.val = 0 + c.val; omega
    | ⟨1, _⟩ => rfl
    | ⟨2, _⟩ => show e.val = 0 + e.val; omega)

theorem reduces_cores : S2x16.Reduces [(0 : Fin 2)] S16 := by decide

/-- The sum over axis 0 from zero adds the two cores' rows entry by entry. -/
theorem coreSum_apply (X : FVec Ideal S2x16 .f32) (e : Fin 16) :
    Host.reduceAdd X (constant (F := Ideal) S_ .f32 0x00000000#32) reducesTo_S2x16_S16_d0 h_S_ (ix1 e)
      = ∑ c : Fin 2, X (ix2 c e) := by
  simp only [Host.reduceAdd, Ideal.hostReduceAdd_def]
  rw [Ideal.hostReduceAdd_single reducesTo_S2x16_S16_d0 reduces_cores, const_apply, Ideal.ofBits_zero_f32, zero_add]
  refine Finset.sum_congr rfl fun k _ => ?_
  exact congrArg X (funext fun a => Fin.ext (by match a with | ⟨0, _⟩ => rfl | ⟨1, _⟩ => rfl))

/-- The sum from zero into the scalar adds the sixteen entries. -/
theorem total_apply (Y : FVec Ideal S16 .f32) (i : S_.Idx) :
    Host.reduceAdd Y (constant (F := Ideal) S_ .f32 0x00000000#32) reducesTo_S16_S_d0 h_S_ i = ∑ e : Fin 16, Y (ix1 e) := by
  simp only [Host.reduceAdd, Ideal.hostReduceAdd_def]
  rw [Ideal.hostReduceAdd_total reducesTo_S16_S_d0 (fun b => b.elim0), const_apply, Ideal.ofBits_zero_f32, zero_add, sum_idx1]

theorem tailLoss_apply (A4 A5 : FVec Ideal S2x8x16 .f32) (R : FVec Ideal S16 .f32) (i : S_.Idx) :
    tailLoss A4 A5 R i
      = (∑ e : Fin 16, (∑ c : Fin 2, A4 (ix3 c (0 : Fin 8) e)) * R (ix1 e) * (∑ c : Fin 2, A5 (ix3 c (0 : Fin 8) e))) * scaleW := by
  unfold tailLoss
  rw [mulf_apply, total_apply, const_apply]
  refine congrArg (· * scaleW) (Finset.sum_congr rfl fun e _ => ?_)
  rw [mulf_apply, mulf_apply, coreSum_apply, coreSum_apply]
  simp only [firstRows_apply]

end Cert.KernelIdeal.GateValue

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.KernelResult.lean ====
/-
  The kernel program's two results as functions of its arguments.

  The weights array is every token's weights.  The scalar: the host operations after the region take row 0 of each core's
  block of the two partial-sum arrays, add the two cores' rows, and contract with the size rates; a core's row is the sum
  over its 16 blocks of 1024 tokens, so the two cores together give the sum over all 32768 tokens — a regrouping of a
  finite sum, which needs only that addition is commutative and associative.
-/
import proofs.«116905_j29575144800914_2_alg».proof.Proof.KernelArrays
import proofs.«116905_j29575144800914_2_alg».proof.Proof.KernelTail
import proofs.«116905_j29575144800914_2_alg».proof.Proof.LibBlockSum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen Cert.Lib Cert.Gate

variable (m : (ℓ : Loc nD τ sig) → Buf (Elt Ideal) ℓ) (ρ : Dev nD → PrngReg)

/-! ## Cores, blocks, tokens -/

/-- Two cores of 16 blocks each are the 32 blocks. -/
theorem cores_total (g : ℕ → EReal) :
    ∑ c' : Fin 2, ∑ j ∈ Finset.range 16, g (16 * c'.val + j) = ∑ b ∈ Finset.range 32, g b := by
  rw [show (32 : ℕ) = 16 + 16 from rfl, Finset.sum_range_add, Fin.sum_univ_two]
  simp

/-- Thirty-two blocks of 1024 consecutive tokens are the 32768 tokens. -/
theorem tokens_total (g : Fin 32768 → EReal) :
    ∑ b ∈ Finset.range 32, ∑ p : Fin 1024, g (tok b p) = ∑ T : Fin 32768, g T := by
  refine (sum_blocks 32 1024 (fun k => g ⟨k % 32768, Nat.mod_lt _ (by decide)⟩)).trans ?_
  show ∑ k : Fin 32768, g ⟨k.val % 32768, _⟩ = ∑ T : Fin 32768, g T
  exact Finset.sum_congr rfl fun k _ => congrArg g (Fin.ext (Nat.mod_eq_of_lt k.isLt))

/-- Row 0 of the two cores' count blocks adds up to the number of tokens that keep the expert; -/
theorem counts_total (c : Dev nD) (q : Fin 16) :
    ∑ c' : Fin 2, countsArr m c (ix3 c' (0 : Fin 8) q) = maskSum (Xa m c) (Wa m c) q :=
  (cores_total (fun b => blockCount m c b q)).trans (tokens_total (fun T => mask (Xa m c) (Wa m c) T q))

/-- of the two cores' mass blocks, to the expert's total probability. -/
theorem mass_total (c : Dev nD) (q : Fin 16) :
    ∑ c' : Fin 2, massArr m c (ix3 c' (0 : Fin 8) q) = probSum (Xa m c) (Wa m c) q :=
  (cores_total (fun b => blockMass m c b q)).trans (tokens_total (fun T => probs (Xa m c) (Wa m c) T q))

/-! ## The two results -/

/-- The weights, and the loss with its scale folded into one factor, of the arguments as launched. -/
def weightsOf (c : Dev nD) : S32768x16.Idx → EReal :=
  fun i => mask (cur2 (m ((c : Thread nD τ).loc main_arg0))) (cur2 (m ((c : Thread nD τ).loc main_arg1))) (i 0) (i 1)
def lossOf (c : Dev nD) : S_.Idx → EReal :=
  fun _ => lossFolded (cur2 (m ((c : Thread nD τ).loc main_arg0))) (cur2 (m ((c : Thread nD τ).loc main_arg1)))
    (cur1 (m ((c : Thread nD τ).loc main_arg2)))

/-- No host operation before the region writes the token or expert arrays: the region finds them as launched. -/
theorem Xa_eq (c : Dev nD) : Xa m c = cur2 (m ((c : Thread nD τ).loc main_arg0)) := by
  unfold Xa; rw [V_main_arg0]
theorem Wa_eq (c : Dev nD) : Wa m c = cur2 (m ((c : Thread nD τ).loc main_arg1)) := by
  unfold Wa; rw [V_main_arg1]

theorem weightsArr_eq (c : Dev nD) : weightsArr m c = weightsOf m c := by
  unfold weightsArr weightsOf; rw [Xa_eq, Wa_eq]

/-- The host operations after the region, applied to the arrays the region leaves. -/
theorem tail_eq (c : Dev nD) :
    Pipeline.afterTail₀ cfgs (dats m) 0 (V0 m) [hostOps1] c main_v11
      = tailLoss (countsArr m c) (massArr m c) (m ((c : Thread nD τ).loc main_arg2)) := by
  have h4 : Pipeline.withArrays (cfgs 0).spec c (V0 m c) (fun w => (dats m 0 c).arrAt w (cfgs 0).N) (Proc.devRef .tc main_v1_1)
      = countsArr m c := (Pipeline.withArrays_arr spec0 launch0.win.arr_inj c _ _ 4).trans (counts_final m c)
  have h5 : Pipeline.withArrays (cfgs 0).spec c (V0 m c) (fun w => (dats m 0 c).arrAt w (cfgs 0).N) (Proc.devRef .tc main_v1_2)
      = massArr m c := (Pipeline.withArrays_arr spec0 launch0.win.arr_inj c _ _ 5).trans (mass_final m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v11) = _
  after_results
  rw [h4, h5, h2]
  rfl

/-- Read at its one index, that is the folded loss of the arguments. -/
theorem loss_eq (c : Dev nD) :
    tailLoss (countsArr m c) (massArr m c) (m ((c : Thread nD τ).loc main_arg2)) = lossOf m c := by
  funext i
  rw [tailLoss_apply]
  unfold lossOf lossFolded
  rw [← Xa_eq, ← Wa_eq]
  refine congrArg (· * scaleW) (Finset.sum_congr rfl fun e _ => ?_)
  rw [counts_total, mass_total]

/-! ## The run, read -/

/-- Every weakly fair execution of the kernel program terminates with the weights array at every token's weights, the
    scalar at the folded loss, and the arguments unchanged. -/
theorem run : θ_run defs (onTc (τ := τ) (main (F := Ideal))) ⟨m, fun _ => 0, ρ⟩ fun r => ∀ c : Dev nD,
      r.2.mem ((c.tc : Thread nD τ).loc main_v1_0) = weightsOf m c
      ∧ r.2.mem ((c.tc : Thread nD τ).loc main_v11) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans ((weights_final m c).trans (weightsArr_eq m c)),
      ((h c).2 main_v11 (Pipeline.mem_restRefs_of main_v11 (by decide) (by decide))).trans ((tail_eq m c).trans (loss_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.GateValue

end
-- ==== Proof.RefGate.lean ====
/-
  The reference program's two results, read one index at a time, are the specification's functions: the weights are
  `maskThrough` and the scalar is `lossMeans`.

  The road follows the program.  The contraction over the 2048 hidden entries is the score `logits`; the fold of
  `max` from −∞ along a row (and one more `max` with −∞, which changes nothing) is `rowTop`; the exponentials of the
  shifted scores over their sum (`0 + s = s`) are `softmaxRow`, hence `probs`; the comparison against half the row's
  largest probability is `below`; and the two column sums over the 32768 tokens, divided by the token count, multiplied
  by the size rates, summed over the sixteen experts and scaled, are `lossMeans`.
-/
import proofs.«116905_j29575144800914_2_alg».proof.Proof.Gen.ReferenceIdeal.Read
import proofs.«116905_j29575144800914_2_alg».proof.Proof.Spec
import proofs.«116905_j29575144800914_2_alg».proof.Proof.LibLogSoftmax
import proofs.«116905_j29575144800914_2_alg».proof.Proof.LibPairsByChunks
import Idealize.ShloMosaic.Lib.ValueIdx
import Idealize.ShloMosaic.PureOps.Ideal.Laws
import Idealize.ShloMosaic.PureOps.Reduce

noncomputable section

namespace Cert.RefGate

open Cert.ReferenceIdeal Cert.ReferenceIdeal.Gen Cert.ReferenceIdeal.Read Idealize.ShloMosaic Idealize.ShloMosaic.ValueIdx Cert.Lib Cert.Gate

/-! ## Indices -/

theorem lidx_v0 (t : Fin 32768) (e : Fin 16) (k : Fin 2048) : lidx_main_v0 (ix2 t e) k = ix2 t k :=
  funext fun a => Fin.ext (by match a with | ⟨0, _⟩ => rfl | ⟨1, _⟩ => rfl)

theorem ridx_v0 (t : Fin 32768) (e : Fin 16) (k : Fin 2048) : ridx_main_v0 (ix2 t e) k = ix2 e k :=
  funext fun a => Fin.ext (by match a with | ⟨0, _⟩ => rfl | ⟨1, _⟩ => rfl)

/-- A column made from a vector and broadcast along the row reads the vector at the row. -/
theorem idx_col (t : Fin 32768) (e : Fin 16) : idx_main_v4 (idx_main_v5 (ix2 t e)) = ix1 t :=
  funext fun a => Fin.ext (by match a with | ⟨0, _⟩ => rfl)

theorem idx_v8 (t : Fin 32768) (k : Fin 16) : idx_main_v8 (ix1 t) k = ix2 t k :=
  funext fun a => Fin.ext (by match a with | ⟨0, _⟩ => rfl | ⟨1, _⟩ => rfl)

theorem idx_v22 (e : Fin 16) (k : Fin 32768) : idx_main_v22 (ix1 e) k = ix2 k e :=
  funext fun a => Fin.ext (by match a with | ⟨0, _⟩ => rfl | ⟨1, _⟩ => rfl)

theorem reduces_row : S32768x16.Reduces [(1 : Fin 2)] S32768 := by decide

/-! ## The scores and the probabilities -/

theorem ref_logits (x0 : (⟨S32768x2048, .f32⟩ : BufTy).Contents (Elt Ideal)) (x1 : (⟨S16x2048, .f32⟩ : BufTy).Contents (Elt Ideal))
    (t : Fin 32768) (e : Fin 16) :
    val_main_v0 (F := Ideal) x0 x1 (ix2 t e) = logits (cur2 x0) (cur2 x1) t e := by
  rw [val_main_v0_apply]
  show _ = ∑ k : Fin 2048, x0 (ix2 t k) * x1 (ix2 e k)
  refine Finset.sum_congr rfl fun k _ => ?_
  rw [lidx_v0, ridx_v0]

/-- The fold of `max` from −∞ along row `t` of an array, read at the row. -/
theorem hostRowMax (y : FVec Ideal S32768x16 .f32) (c : FVec Ideal S_ .f32)
    (hc : c (Shape.Idx.first h_S_) = Ideal.ofBits .f32 0xFF800000#32) (t : Fin 32768) :
    Host.reduce FloatOps.maximumf y c reducesTo_S32768x16_S32768_d1 h_S_ (ix1 t) = rowTop (fun e : Fin 16 => y (ix2 t e)) := by
  rw [Host.reduce_eq_fold_single FloatOps.maximumf y c reducesTo_S32768x16_S32768_d1 reduces_row h_S_ (ix1 t), hc]
  exact congrArg (fun f => (Finset.univ : Finset (Fin 16)).fold max (Ideal.ofBits .f32 0xFF800000#32) f)
    (funext fun k => congrArg y (lift_lane reduces_row t k))

theorem ref_top (x0 : (⟨S32768x2048, .f32⟩ : BufTy).Contents (Elt Ideal)) (x1 : (⟨S16x2048, .f32⟩ : BufTy).Contents (Elt Ideal))
    (t : Fin 32768) :
    val_main_v3 (F := Ideal) x0 x1 (ix1 t) = rowTop (logits (cur2 x0) (cur2 x1) t) := by
  rw [val_main_v3_apply, val_main_v2_apply, val_main_cst_0_apply]
  show max (Ideal.ofBits .f32 0xFF800000#32) (val_main_v1 (F := Ideal) x0 x1 (ix1 t)) = _
  rw [max_negInf]
  unfold val_main_v1
  rw [hostRowMax _ _ rfl t]
  exact congrArg rowTop (funext fun e => ref_logits x0 x1 t e)

/-- The exponential of a score less its row's maximum. -/
theorem ref_shiftedExp (x0 : (⟨S32768x2048, .f32⟩ : BufTy).Contents (Elt Ideal)) (x1 : (⟨S16x2048, .f32⟩ : BufTy).Contents (Elt Ideal))
    (t : Fin 32768) (e : Fin 16) :
    val_main_v7 (F := Ideal) x0 x1 (ix2 t e)
      = Ideal.exp (logits (cur2 x0) (cur2 x1) t e - rowTop (logits (cur2 x0) (cur2 x1) t)) := by
  rw [val_main_v7_apply, val_main_v6_apply, val_main_v5_apply, val_main_v4_apply, idx_col, ref_top, ref_logits]
  rfl

/-- The row's sum of exponentials. -/
theorem ref_denominator (x0 : (⟨S32768x2048, .f32⟩ : BufTy).Contents (Elt Ideal)) (x1 : (⟨S16x2048, .f32⟩ : BufTy).Contents (Elt Ideal))
    (t : Fin 32768) :
    val_main_v8 (F := Ideal) x0 x1 (ix1 t)
      = ∑ j : Fin 16, Ideal.exp (logits (cur2 x0) (cur2 x1) t j - rowTop (logits (cur2 x0) (cur2 x1) t)) := by
  rw [val_main_v8_apply, val_main_cst_1_apply]
  show Ideal.ofBits .f32 0x00000000#32 + _ = _
  rw [Ideal.ofBits_zero_f32, zero_add]
  refine Finset.sum_congr rfl fun k _ => ?_
  rw [idx_v8, ref_shiftedExp]

theorem idx_col' (t : Fin 32768) (e : Fin 16) : idx_main_v9 (idx_main_v10 (ix2 t e)) = ix1 t :=
  funext fun a => Fin.ext (by match a with | ⟨0, _⟩ => rfl)

theorem ref_probs (x0 : (⟨S32768x2048, .f32⟩ : BufTy).Contents (Elt Ideal)) (x1 : (⟨S16x2048, .f32⟩ : BufTy).Contents (Elt Ideal))
    (t : Fin 32768) (e : Fin 16) :
    val_main_v11 (F := Ideal) x0 x1 (ix2 t e) = probs (cur2 x0) (cur2 x1) t e := by
  rw [val_main_v11_apply, val_main_v10_apply, val_main_v9_apply, idx_col', ref_denominator, ref_shiftedExp]
  rfl

/-! ## The weights -/

/-- The row's largest probability. -/
theorem ref_probTop (x0 : (⟨S32768x2048, .f32⟩ : BufTy).Contents (Elt Ideal)) (x1 : (⟨S16x2048, .f32⟩ : BufTy).Contents (Elt Ideal))
    (t : Fin 32768) :
    val_main_v12 (F := Ideal) x0 x1 (ix1 t) = rowTop (probs (cur2 x0) (cur2 x1) t) := by
  unfold val_main_v12
  rw [hostRowMax _ _ rfl t]
  exact congrArg rowTop (funext fun e => ref_probs x0 x1 t e)

theorem idx_col'' (t : Fin 32768) (e : Fin 16) : idx_main_v13 (idx_main_v19 (ix2 t e)) = ix1 t :=
  funext fun a => Fin.ext (by match a with | ⟨0, _⟩ => rfl)

/-- Half the row's largest probability, broadcast along the row. -/
theorem ref_threshold (x0 : (⟨S32768x2048, .f32⟩ : BufTy).Contents (Elt Ideal)) (x1 : (⟨S16x2048, .f32⟩ : BufTy).Contents (Elt Ideal))
    (t : Fin 32768) (e : Fin 16) :
    val_main_v19 (F := Ideal) x0 x1 (ix2 t e) = rowTop (probs (cur2 x0) (cur2 x1) t) * halfW := by
  rw [val_main_v19_apply, val_main_v15_apply, val_main_v13_apply, idx_col'', ref_probTop, val_main_v14_apply,
    val_main_cst_3_apply]
  rfl

theorem ref_mask_ix (x0 : (⟨S32768x2048, .f32⟩ : BufTy).Contents (Elt Ideal)) (x1 : (⟨S16x2048, .f32⟩ : BufTy).Contents (Elt Ideal))
    (t : Fin 32768) (e : Fin 16) :
    val_main_v21 (F := Ideal) x0 x1 (ix2 t e) = maskThrough (cur2 x0) (cur2 x1) t e := by
  rw [val_main_v21_apply, val_main_v20_apply, ref_threshold, val_main_call0_v0_apply, val_main_cst_5_apply,
    val_main_v18_apply, val_main_v17_apply, val_main_v16_apply, val_main_cst_4_apply, ref_probs]
  rfl

theorem ref_mask (x0 : (⟨S32768x2048, .f32⟩ : BufTy).Contents (Elt Ideal)) (x1 : (⟨S16x2048, .f32⟩ : BufTy).Contents (Elt Ideal))
    (i : S32768x16.Idx) :
    val_main_v21 (F := Ideal) x0 x1 i = maskThrough (cur2 x0) (cur2 x1) (i 0) (i 1) :=
  (congrArg (val_main_v21 (F := Ideal) x0 x1) (eq_ix2 i)).trans (ref_mask_ix x0 x1 (i 0) (i 1))

/-! ## The loss -/

theorem idx_v26 (e : Fin 16) (k : Fin 32768) : idx_main_v26 (ix1 e) k = ix2 k e :=
  funext fun a => Fin.ext (by match a with | ⟨0, _⟩ => rfl | ⟨1, _⟩ => rfl)

/-- The weights of expert `e` summed over the tokens. -/
theorem ref_maskSum (x0 : (⟨S32768x2048, .f32⟩ : BufTy).Contents (Elt Ideal)) (x1 : (⟨S16x2048, .f32⟩ : BufTy).Contents (Elt Ideal))
    (e : Fin 16) :
    val_main_v22 (F := Ideal) x0 x1 (ix1 e) = maskThroughSum (cur2 x0) (cur2 x1) e := by
  rw [val_main_v22_apply, val_main_cst_6_apply]
  show Ideal.ofBits .f32 0x00000000#32 + _ = _
  rw [Ideal.ofBits_zero_f32, zero_add]
  refine Finset.sum_congr rfl fun k _ => ?_
  rw [idx_v22, ref_mask_ix]

/-- The probabilities of expert `e` summed over the tokens. -/
theorem ref_probSum (x0 : (⟨S32768x2048, .f32⟩ : BufTy).Contents (Elt Ideal)) (x1 : (⟨S16x2048, .f32⟩ : BufTy).Contents (Elt Ideal))
    (e : Fin 16) :
    val_main_v26 (F := Ideal) x0 x1 (ix1 e) = probSum (cur2 x0) (cur2 x1) e := by
  rw [val_main_v26_apply, val_main_cst_8_apply]
  show Ideal.ofBits .f32 0x00000000#32 + _ = _
  rw [Ideal.ofBits_zero_f32, zero_add]
  refine Finset.sum_congr rfl fun k _ => ?_
  rw [idx_v26, ref_probs]

/-- Expert `e`'s product: the mean weight, the size rate, the mean probability. -/
theorem ref_term (x0 : (⟨S32768x2048, .f32⟩ : BufTy).Contents (Elt Ideal)) (x1 : (⟨S16x2048, .f32⟩ : BufTy).Contents (Elt Ideal))
    (x2 : (⟨S16, .f32⟩ : BufTy).Contents (Elt Ideal)) (e : Fin 16) :
    val_main_v29 (F := Ideal) x0 x1 x2 (ix1 e)
      = Ideal.div (maskThroughSum (cur2 x0) (cur2 x1) e) tokensW * cur1 x2 e
          * Ideal.div (probSum (cur2 x0) (cur2 x1) e) tokensW := by
  rw [val_main_v29_apply, val_main_v25_apply, val_main_v24_apply, val_main_v28_apply, ref_maskSum, ref_probSum,
    val_main_v23_apply, val_main_v27_apply, val_main_cst_7_apply, val_main_cst_9_apply]
  rfl

theorem ref_loss (x0 : (⟨S32768x2048, .f32⟩ : BufTy).Contents (Elt Ideal)) (x1 : (⟨S16x2048, .f32⟩ : BufTy).Contents (Elt Ideal))
    (x2 : (⟨S16, .f32⟩ : BufTy).Contents (Elt Ideal)) (i : S_.Idx) :
    val_main_v32 (F := Ideal) x0 x1 x2 i = lossMeans (cur2 x0) (cur2 x1) (cur1 x2) := by
  rw [val_main_v32_apply, val_main_v31_apply, val_main_v30_apply, val_main_cst_10_apply, val_main_cst_11_apply,
    val_main_cst_12_apply]
  show (Ideal.ofBits .f32 0x00000000#32 + ∑ j : S16.Idx, val_main_v29 (F := Ideal) x0 x1 x2 j) * tokensW * weightW = _
  rw [Ideal.ofBits_zero_f32, zero_add, sum_idx1, Finset.sum_congr rfl (fun e _ => ref_term x0 x1 x2 e)]
  rfl

end Cert.RefGate

end
-- ==== Proof.LibRealSums.lean ====
/-
  Real-valued families of extended reals, and the two laws of finite sums that hold for them.

  On the extended reals a product does not distribute over a sum in general.  It does as soon as the summands and the
  factor are real numbers: then every term is real and the law is the real one.  This file names "every value is a real
  number" (`IsReal`), shows that sums, products, maxima and selections of real values are real, and proves
  `(∑ b) * w = ∑ (b * w)` for real `b` and `w`, from which follow the two regroupings a graph layer needs: a masked
  sum of row-by-matrix products is the product of the masked sum of rows (`sum_ite_contract`), and a row-by-matrix
  product scaled by a real number is the product of the scaled row (`contract_mul`).
-/
import Mathlib.Data.EReal.Operations
import Mathlib.Data.EReal.Inv
import Mathlib.Algebra.BigOperators.Group.Finset.Sigma
import Mathlib.Algebra.BigOperators.Group.Finset.Basic
import Mathlib.Algebra.BigOperators.Ring.Finset

open scoped BigOperators

namespace Cert.Lib

/-- Every value of the family is a real number. -/
def IsReal {ι : Type*} (f : ι → EReal) : Prop := ∀ i, ∃ r : ℝ, f i = (r : EReal)

/-- The inclusion of the reals as an additive homomorphism. -/
def coeHom : ℝ →+ EReal where
  toFun := fun r => (r : EReal)
  map_zero' := EReal.coe_zero
  map_add' := EReal.coe_add

/-- The inclusion of the reals commutes with finite sums. -/
theorem coe_sum {ι : Type*} (s : Finset ι) (f : ι → ℝ) : ((∑ i ∈ s, f i : ℝ) : EReal) = ∑ i ∈ s, (f i : EReal) :=
  map_sum coeHom f s

theorem isReal_zero : ∃ r : ℝ, (0 : EReal) = (r : EReal) := ⟨0, EReal.coe_zero.symm⟩
theorem isReal_one : ∃ r : ℝ, (1 : EReal) = (r : EReal) := ⟨1, EReal.coe_one.symm⟩

theorem isReal_add {a b : EReal} (ha : ∃ r : ℝ, a = r) (hb : ∃ r : ℝ, b = r) : ∃ r : ℝ, a + b = (r : EReal) := by
  obtain ⟨x, rfl⟩ := ha; obtain ⟨y, rfl⟩ := hb; exact ⟨x + y, (EReal.coe_add x y).symm⟩

theorem isReal_mul {a b : EReal} (ha : ∃ r : ℝ, a = r) (hb : ∃ r : ℝ, b = r) : ∃ r : ℝ, a * b = (r : EReal) := by
  obtain ⟨x, rfl⟩ := ha; obtain ⟨y, rfl⟩ := hb; exact ⟨x * y, (EReal.coe_mul x y).symm⟩

theorem isReal_max {a b : EReal} (ha : ∃ r : ℝ, a = r) (hb : ∃ r : ℝ, b = r) : ∃ r : ℝ, max a b = (r : EReal) := by
  rcases max_choice a b with h | h
  · rw [h]; exact ha
  · rw [h]; exact hb

theorem isReal_ite {P : Prop} [Decidable P] {a b : EReal} (ha : ∃ r : ℝ, a = r) (hb : ∃ r : ℝ, b = r) :
    ∃ r : ℝ, (if P then a else b) = (r : EReal) := by
  split
  · exact ha
  · exact hb

/-- A finite sum of real values is real. -/
theorem isReal_sum {ι : Type*} (s : Finset ι) (f : ι → EReal) (hf : IsReal f) : ∃ r : ℝ, ∑ i ∈ s, f i = (r : EReal) := by
  choose f' hf' using hf
  exact ⟨∑ i ∈ s, f' i, by rw [coe_sum]; exact Finset.sum_congr rfl fun i _ => hf' i⟩

/-- A real value is neither infinity. -/
theorem ne_top_bot_of_isReal {a : EReal} (ha : ∃ r : ℝ, a = r) : a ≠ ⊤ ∧ a ≠ ⊥ := by
  obtain ⟨x, rfl⟩ := ha; exact ⟨EReal.coe_ne_top x, EReal.coe_ne_bot x⟩

/-- The inverse of a real value (with `0⁻¹ = 0` as in the reals... on the extended reals the inverse of zero is the
    real `0` too) is real. -/
theorem isReal_inv {a : EReal} (ha : ∃ r : ℝ, a = r) : ∃ r : ℝ, a⁻¹ = (r : EReal) := by
  obtain ⟨x, rfl⟩ := ha; exact ⟨x⁻¹, (EReal.coe_inv x).symm⟩

/-- Right distributivity over a finite sum of real values by a real factor. -/
theorem sum_mul_of_isReal {ι : Type*} (s : Finset ι) (b : ι → EReal) (w : EReal) (hb : IsReal b) (hw : ∃ r : ℝ, w = r) :
    (∑ i ∈ s, b i) * w = ∑ i ∈ s, b i * w := by
  obtain ⟨w', rfl⟩ := hw
  choose b' hb' using hb
  have hbb : b = fun i => (b' i : EReal) := funext hb'
  subst hbb
  rw [← coe_sum, ← EReal.coe_mul, Finset.sum_mul, coe_sum]
  exact Finset.sum_congr rfl fun i _ => EReal.coe_mul _ _

/-- A masked sum over `e` of the contractions `∑ k, h e k * w k` is the contraction of the masked sums, for real
    `h` and `w`. -/
theorem sum_ite_contract {ε κ : Type*} [Fintype ε] [Fintype κ] (P : ε → Prop) [DecidablePred P]
    (h : ε → κ → EReal) (w : κ → EReal) (hh : ∀ e, IsReal (h e)) (hw : IsReal w) :
    ∑ e, (if P e then ∑ k, h e k * w k else 0) = ∑ k, (∑ e, if P e then h e k else 0) * w k := by
  have h1 : ∀ e, (if P e then ∑ k, h e k * w k else 0) = ∑ k, (if P e then h e k else 0) * w k := by
    intro e
    by_cases hP : P e
    · simp only [if_pos hP]
    · simp only [if_neg hP, zero_mul, Finset.sum_const_zero]
  rw [Finset.sum_congr rfl fun e _ => h1 e, Finset.sum_comm]
  refine Finset.sum_congr rfl fun k _ => ?_
  exact (sum_mul_of_isReal Finset.univ (fun e => if P e then h e k else 0) (w k)
    (fun e => isReal_ite (hh e k) isReal_zero) (hw k)).symm

/-- A contraction scaled by a real `d` is the contraction of the scaled row, for real terms. -/
theorem contract_mul {κ : Type*} [Fintype κ] (a w : κ → EReal) (d : EReal) (ha : IsReal a) (hw : IsReal w)
    (hd : ∃ r : ℝ, d = r) : (∑ k, a k * w k) * d = ∑ k, (a k * d) * w k := by
  rw [sum_mul_of_isReal Finset.univ (fun k => a k * w k) d (fun k => isReal_mul (ha k) (hw k)) hd]
  exact Finset.sum_congr rfl fun k _ => mul_right_comm _ _ _

end Cert.Lib
-- ==== Proof.LibFactoredContract.lean ====
/-
  Two ways to contract a row with a low-rank weight, on the extended reals.

  For a row `a` over `ι`, a factor `v` over `κ × ι` and a weight `w` over `κ`, all of whose entries are REAL
  numbers (no `±∞`), projecting the row first and then weighting,

      ∑ r, (∑ i, a i * v r i) * w r,

  equals contracting the row with the materialised weight `∑ r, w r * v r i`,

      ∑ i, a i * ∑ r, w r * v r i.

  On the reals this is distributivity and an exchange of the two finite sums. On the extended reals distributivity
  fails at the infinities, so the statement asks that every entry be real; the proof names the real witnesses, moves
  the coercion `ℝ → EReal` outside the sums and products, and is then the real identity.
-/
import Mathlib.Data.EReal.Basic
import Mathlib.Data.EReal.Operations
import Mathlib.Algebra.BigOperators.Ring.Finset
import Mathlib.Algebra.BigOperators.Group.Finset.Sigma
import Mathlib.Tactic.Ring

namespace Cert.Lib

open Finset

/-- An extended real that is a real number: neither `+∞` nor `-∞`. -/
def IsRealVal (x : EReal) : Prop := x ≠ ⊤ ∧ x ≠ ⊥

theorem IsRealVal.exists_coe {x : EReal} (h : IsRealVal x) : ∃ r : ℝ, x = (r : EReal) :=
  ⟨x.toReal, (EReal.coe_toReal h.1 h.2).symm⟩

theorem isRealVal_coe (r : ℝ) : IsRealVal (r : EReal) := ⟨EReal.coe_ne_top r, EReal.coe_ne_bot r⟩

/-- The product of two real values is a real value. -/
theorem IsRealVal.mul {x y : EReal} (hx : IsRealVal x) (hy : IsRealVal y) : IsRealVal (x * y) := by
  obtain ⟨a, rfl⟩ := hx.exists_coe
  obtain ⟨b, rfl⟩ := hy.exists_coe
  rw [← EReal.coe_mul]; exact isRealVal_coe _

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Projecting a row through the factor `v` and then weighting by `w` is contracting it with the materialised
    weight, when every entry is real. -/
theorem factored_contract {ι κ : Type*} [Fintype ι] [Fintype κ] (a : ι → EReal) (v : κ → ι → EReal) (w : κ → EReal)
    (ha : ∀ i, IsRealVal (a i)) (hv : ∀ r i, IsRealVal (v r i)) (hw : ∀ r, IsRealVal (w r)) :
    ∑ r, (∑ i, a i * v r i) * w r = ∑ i, a i * ∑ r, w r * v r i := by
  choose a' ha' using fun i => (ha i).exists_coe
  choose v' hv' using fun r i => (hv r i).exists_coe
  choose w' hw' using fun r => (hw r).exists_coe
  simp only [ha', hv', hw', ← EReal.coe_mul, ← coe_finset_sum]
  congr 1
  simp only [Finset.sum_mul, Finset.mul_sum]
  rw [Finset.sum_comm]
  refine Finset.sum_congr rfl fun i _ => Finset.sum_congr rfl fun r _ => ?_
  ring

end Cert.Lib
-- ==== Proof.LibFiniteDecode.lean ====
/-
  Reading "every entry is finite" back out of a printed precondition, and carrying it through a concatenation.

  A precondition `jnp.all(jnp.abs(x) < inf)` prints as a reduction by `and`, from the constant `1`, of the
  comparison `|x| < 0x7F800000` taken entry by entry; over the extended reals the pattern `0x7F800000` is `+∞` and
  `|x|` is `max x (-x)`. If the reduction came out `1` then every comparison did, and `max x (-x) < +∞` says that
  `x` is neither `+∞` nor `-∞`: a real number.

  A concatenation reads every one of its entries from one of its pieces, so any property every entry of every piece has
  (being real, in particular) every entry of the concatenation has.
-/
import Idealize.ShloMosaic.Lib.ReduceAll
import Idealize.ShloMosaic.Lib.ValueIdx
import Idealize.ShloMosaic.PureOps.Ideal.Laws
import proofs.«116905_j29575144800914_2_alg».proof.Proof.LibFactoredContract

noncomputable section

namespace Cert.Lib

open Idealize.ShloMosaic Idealize.ShloMosaic.ValueIdx

/-- The scalar shape: what `jnp.all` reduces into. -/
abbrev S0 : Shape := ⟨0, ![]⟩

/-- It has one index. -/
instance : Subsingleton S0.Idx := ⟨fun _ _ => funext fun d => d.elim0⟩

/-- The f32 pattern `0x7F800000` denotes `+∞`. -/
theorem ofBits_inf_f32 : Ideal.ofBits .f32 0x7F800000#32 = ⊤ := by simp [Ideal.ofBits, Ideal.ieee]

/-- An extended real whose absolute value `max x (-x)` compares below `+∞` is a real number. -/
theorem isRealVal_of_abs_lt_top (x : EReal) (h : Ideal.cmp .olt (max x (-x)) ⊤ = 1#1) : IsRealVal x := by
  have h' : max x (-x) < ⊤ := by
    by_contra hn
    simp [Ideal.cmp, hn] at h
  constructor
  · rintro rfl; simp at h'
  · rintro rfl; simp at h'

/-- `jnp.all(jnp.abs(x) < inf)` read back: if the printed reduction is `1`, every entry of `x` is a real number. -/
theorem isRealVal_of_all_abs_lt_inf {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi
        (cmpf .olt (Host.absf x) (broadcastInDim s ![] hb (constant (F := Ideal) S0 .f32 0x7F800000#32)))
        (constantI S0 1 1#1) hr hu ix0 = 1#1)
    (i : s.Idx) : IsRealVal (x i) := by
  have h := Host.reduce_andi_all _ _ hr hu ix0 e i
  refine isRealVal_of_abs_lt_top (x i) ?_
  rw [← ofBits_inf_f32]
  exact h

/-- Whatever holds of every entry of every piece holds of every entry of their concatenation. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Cert.Lib

end
-- ==== Proof.GateAlgebra.lean ====
/-
  On real inputs the two spellings of the mask and of the loss agree.

  Every score is a finite sum of products of real numbers, hence real.  The maximum of a nonempty row of real numbers,
  taken from −∞, is real; the exponential of a real number is a positive real; a sum of positive reals is a positive
  real, in particular not zero; and a real divided by a nonzero real is real.  So every probability is a real number.

  For a real probability `p` the kept weight `1 + p − p` is `1`, so the two masks are the same function.

  Every mask entry is `0` or `1`, so the token counts and the total probabilities are real numbers `a e`, `b e`.  With
  `N = 32768`, `c` the loss weight and `r e` the real size rates,
  `(∑ e, (a e / N) · r e · (b e / N)) · N · c = (∑ e, a e · r e · b e) · (c / N)`, and `c / N` is the weight's word with
  its exponent lowered by 15.

  Last, the printed precondition (three `all (|x| < +∞)` joined by `and`) says that every entry of the three inputs is a
  real number.
-/
import proofs.«116905_j29575144800914_2_alg».proof.Proof.Spec
import proofs.«116905_j29575144800914_2_alg».proof.Proof.LibRealSums
import proofs.«116905_j29575144800914_2_alg».proof.Proof.LibFiniteDecode
import proofs.«116905_j29575144800914_2_alg».proof.Pre_finite_inputs
import Idealize.ShloMosaic.Lib.ReduceAll
import Mathlib.Analysis.SpecialFunctions.Exp
import Mathlib.Tactic.Ring
import Mathlib.Tactic.NormNum
import Mathlib.Tactic.Positivity
import Mathlib.Tactic.LinearCombination

noncomputable section

namespace Cert.Gate

open Idealize.ShloMosaic Idealize.ShloMosaic.ValueIdx Cert.Lib

/-! ### Every probability is a real number -/

/-- The f32 pattern `0xFF800000` denotes `−∞`. -/
theorem ofBits_negInf_f32 : Ideal.ofBits .f32 0xFF800000#32 = ⊥ := by simp [Ideal.ofBits, Ideal.ieee]

/-- The maximum, taken from −∞, of a nonempty row of real numbers is a real number. -/
theorem rowTop_real {C : Nat} (hC : 0 < C) (s : Fin C → EReal) (hs : ∀ j, IsRealVal (s j)) : IsRealVal (rowTop s) := by
  unfold rowTop
  rw [ofBits_negInf_f32]
  constructor
  · refine ne_of_lt ?_
    rw [Finset.fold_max_lt]
    exact ⟨bot_lt_top, fun j _ => lt_top_iff_ne_top.2 (hs j).1⟩
  · refine ne_of_gt (lt_of_lt_of_le (bot_lt_iff_ne_bot.2 (hs ⟨0, hC⟩).2) ?_)
    rw [Finset.le_fold_max]
    exact Or.inr ⟨⟨0, hC⟩, Finset.mem_univ _, le_rfl⟩

/-- The softmax of a nonempty row of real numbers, written in the reals. -/
theorem softmaxRow_coe {C : Nat} (hC : 0 < C) (l : Fin C → ℝ) (m : ℝ) (s : Fin C → EReal)
    (hl : ∀ j, s j = (l j : EReal)) (hm : rowTop s = (m : EReal)) (q : Fin C) :
    softmaxRow s q = ((Real.exp (l q - m) * (1 / ∑ j : Fin C, Real.exp (l j - m)) : ℝ) : EReal) := by
  have hpos : 0 < ∑ j : Fin C, Real.exp (l j - m) :=
    Finset.sum_pos (fun j _ => Real.exp_pos _) ⟨⟨0, hC⟩, Finset.mem_univ _⟩
  have hden : (∑ j : Fin C, Ideal.exp (s j - rowTop s)) = ((∑ j : Fin C, Real.exp (l j - m) : ℝ) : EReal) := by
    rw [coe_finset_sum]
    refine Finset.sum_congr rfl fun j _ => ?_
    rw [hl j, hm, ← EReal.coe_sub, Ideal.exp_coe]
  unfold softmaxRow
  rw [hden, Ideal.div_coe (ne_of_gt hpos), hl q, hm, ← EReal.coe_sub, Ideal.exp_coe, ← EReal.coe_mul]

/-- The softmax of a nonempty row of real numbers is a row of real numbers. -/
theorem softmaxRow_real {C : Nat} (hC : 0 < C) (s : Fin C → EReal) (hs : ∀ j, IsRealVal (s j)) (q : Fin C) :
    IsRealVal (softmaxRow s q) := by
  choose l hl using fun j => (hs j).exists_coe
  obtain ⟨m, hm⟩ := (rowTop_real hC s hs).exists_coe
  rw [softmaxRow_coe hC l m s hl hm q]
  exact isRealVal_coe _

section
variable (X : Fin 32768 → Fin 2048 → EReal) (W : Fin 16 → Fin 2048 → EReal) (R : Fin 16 → EReal)

/-- Every score is a real number: a finite sum of products of real numbers. -/
theorem logits_real (hX : ∀ t k, IsRealVal (X t k)) (hW : ∀ e k, IsRealVal (W e k)) (t : Fin 32768) (e : Fin 16) :
    IsRealVal (logits X W t e) := by
  obtain ⟨r, hr⟩ := isReal_sum Finset.univ (fun k : Fin 2048 => X t k * W e k)
    (fun k => isReal_mul (hX t k).exists_coe (hW e k).exists_coe)
  unfold logits
  rw [hr]
  exact isRealVal_coe r

/-- Every probability is a real number. -/
theorem probs_real (hX : ∀ t k, IsRealVal (X t k)) (hW : ∀ e k, IsRealVal (W e k)) (t : Fin 32768) (e : Fin 16) :
    IsRealVal (probs X W t e) :=
  softmaxRow_real (by norm_num) (logits X W t) (fun j => logits_real X W hX hW t j) e

/-! ### The two masks agree -/

/-- The f32 pattern `0x3F800000` denotes `1`. -/
theorem oneW_eq : oneW = 1 := by
  simp [Ideal.ofBits, Ideal.ieee, -EReal.coe_mul]
  norm_num

/-- For a real `p`, `1 + p − p = 1`. -/
theorem one_add_sub_self {p : EReal} (hp : IsRealVal p) : oneW + p - p = oneW := by
  obtain ⟨r, rfl⟩ := hp.exists_coe
  rw [oneW_eq, ← EReal.coe_one, ← EReal.coe_add, ← EReal.coe_sub, add_sub_cancel_right]

/-- The weight spelled `1 + p − p` is the weight spelled `1`. -/
theorem maskThrough_eq (hX : ∀ t k, IsRealVal (X t k)) (hW : ∀ e k, IsRealVal (W e k)) (t : Fin 32768) (e : Fin 16) :
    maskThrough X W t e = mask X W t e := by
  unfold maskThrough mask
  rw [one_add_sub_self (probs_real X W hX hW t e)]

end

/-! ### The printed precondition says every input entry is a real number -/

/-- Every entry of the three inputs is a real number when the printed precondition holds. -/
theorem finite_of_pre [Cert.Pre_finite_inputs.Facts] (x0 : FVec Ideal Cert.Pre_finite_inputs.S32768x2048 .f32)
    (x1 : FVec Ideal Cert.Pre_finite_inputs.S16x2048 .f32) (x2 : FVec Ideal Cert.Pre_finite_inputs.S16 .f32)
    (h : Cert.Pre_finite_inputs.fn (F := Ideal) x0 x1 x2 = fun _ => 1#1) :
    (∀ i, IsRealVal (x0 i)) ∧ (∀ i, IsRealVal (x1 i)) ∧ (∀ i, IsRealVal (x2 i)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => isRealVal_of_all_abs_lt_inf x0 _ _ _ h0' i, fun i => isRealVal_of_all_abs_lt_inf x1 _ _ _ h1 i,
    fun i => isRealVal_of_all_abs_lt_inf x2 _ _ _ h2 i⟩

/-! ### The two spellings of the loss agree -/

/-- The f32 pattern `0x00000000` denotes `0`. -/
theorem zeroW_eq : zeroW = 0 := Ideal.ofBits_zero_f32

/-- The f32 pattern `0x47000000` (exponent field 142, fraction 0) denotes `2^23 · 2^(142 − 150) = 32768`. -/
theorem tokensW_eq : tokensW = ((32768 : ℝ) : EReal) := by
  simp [Ideal.ofBits, Ideal.ieee, -EReal.coe_mul]
  norm_num

/-- The f32 pattern `0x3C23D70A` (exponent field 120, fraction 2348810) denotes
    `(2^23 + 2348810) · 2^(120 − 150) = 10737418 · 2^(−30)`. -/
theorem weightW_eq : weightW = ((10737418 * (2 : ℝ) ^ (-30 : ℤ) : ℝ) : EReal) := by
  simp [Ideal.ofBits, Ideal.ieee, -EReal.coe_mul]

/-- The f32 pattern `0x34A3D70A` (exponent field 105, the same fraction) denotes `10737418 · 2^(−45)`. -/
theorem scaleW_eq : scaleW = ((10737418 * (2 : ℝ) ^ (-45 : ℤ) : ℝ) : EReal) := by
  simp [Ideal.ofBits, Ideal.ieee, -EReal.coe_mul]

section
variable (X : Fin 32768 → Fin 2048 → EReal) (W : Fin 16 → Fin 2048 → EReal) (R : Fin 16 → EReal)

/-- Every mask entry is `0` or `1`, a real number. -/
theorem mask_real (t : Fin 32768) (e : Fin 16) : ∃ r : ℝ, mask X W t e = (r : EReal) := by
  unfold mask Scalar.select
  rw [zeroW_eq, oneW_eq]
  exact isReal_ite isReal_zero isReal_one

/-- The loss over the two means is the loss with the scale folded into one factor. -/
theorem lossMeans_eq (hX : ∀ t k, IsRealVal (X t k)) (hW : ∀ e k, IsRealVal (W e k)) (hR : ∀ e, IsRealVal (R e)) :
    lossMeans X W R = lossFolded X W R := by
  choose a ha using fun e => isReal_sum Finset.univ (fun t => mask X W t e) (fun t => mask_real X W t e)
  choose b hb using fun e => isReal_sum Finset.univ (fun t => probs X W t e)
    (fun t => (probs_real X W hX hW t e).exists_coe)
  choose r hr using fun e => (hR e).exists_coe
  have hms : ∀ e, maskSum X W e = (a e : EReal) := ha
  have hmts : ∀ e, maskThroughSum X W e = (a e : EReal) := fun e =>
    (Finset.sum_congr rfl fun t _ => maskThrough_eq X W hX hW t e).trans (ha e)
  have hps : ∀ e, probSum X W e = (b e : EReal) := hb
  have hN : (32768 : ℝ) ≠ 0 := by norm_num
  unfold lossMeans lossFolded
  simp only [hms, hmts, hps, hr, tokensW_eq, weightW_eq, scaleW_eq, Ideal.div_coe hN, ← EReal.coe_mul, ← coe_finset_sum]
  refine congrArg (fun x : ℝ => (x : EReal)) ?_
  rw [Finset.sum_mul, Finset.sum_mul, Finset.sum_mul]
  refine Finset.sum_congr rfl fun e _ => ?_
  have h2 : (2 : ℝ) ^ (-45 : ℤ) = (2 : ℝ) ^ (-30 : ℤ) * (1 / 32768) := by norm_num
  rw [h2]
  have h3 : (32768 : ℝ) * (1 / 32768) = 1 := by norm_num
  linear_combination (a e * r e * b e * (1 / 32768) * (10737418 * (2 : ℝ) ^ (-30 : ℤ))) * h3

end

end Cert.Gate

end
-- ==== Proof.lean ====
/-
  A mixture-of-experts router: 32768 tokens of width 2048 are scored against 16 expert rows, the scores are turned into
  probabilities by a row softmax, an expert is kept for a token unless its probability is strictly below half the row's
  largest, and a balance loss contracts, expert by expert, the number of tokens that keep the expert, the expert's size
  rate and the expert's total probability.

  The kernel streams the tokens in 32 blocks of 1024, 16 blocks per core; each core accumulates its per-expert counts and
  probability masses across its 16 blocks and writes them out after its last block, and the host adds the two cores'
  rows and scales the contraction once, by the f32 nearest 0.01 with its exponent lowered by 15.  The reference computes
  everything on whole arrays, writes a kept weight as `1 + p − p`, takes the two totals as means over the 32768 tokens, and
  multiplies the contraction back by 32768 and then by the f32 nearest 0.01.

  Over the extended reals the two agree on finite inputs: the matrix products, the softmax and the comparison are the same
  functions index by index (a change of float format is the identity); the kernel's blockwise accumulation is a regrouping
  of a finite sum; `1 + p − p = 1` for a real probability `p`; and `(a/N)·r·(b/N)·N·c = a·r·b·(c/N)` for real totals, the
  division by `N = 2¹⁵` being exact on the binary value of `c`.  The three frame claims are the generated frames; nothing was
  rewritten between the kernel and its idealization.
-/
import proofs.«116905_j29575144800914_2_alg».proof.Defs
import proofs.«116905_j29575144800914_2_alg».proof.Proof.Gen.Kernel
import proofs.«116905_j29575144800914_2_alg».proof.Proof.Gen.Kernel.Skeleton
import proofs.«116905_j29575144800914_2_alg».proof.Proof.Gen.Kernel.Launch
import proofs.«116905_j29575144800914_2_alg».proof.Proof.Gen.Kernel.Points
import proofs.«116905_j29575144800914_2_alg».proof.Proof.Gen.Kernel.Frame
import proofs.«116905_j29575144800914_2_alg».proof.Proof.Gen.KernelIdeal
import proofs.«116905_j29575144800914_2_alg».proof.Proof.Gen.KernelIdeal.Skeleton
import proofs.«116905_j29575144800914_2_alg».proof.Proof.Gen.KernelIdeal.Launch
import proofs.«116905_j29575144800914_2_alg».proof.Proof.Gen.KernelIdeal.Points
import proofs.«116905_j29575144800914_2_alg».proof.Proof.Gen.KernelIdeal.Frame
import proofs.«116905_j29575144800914_2_alg».proof.Proof.Gen.ReferenceIdeal
import proofs.«116905_j29575144800914_2_alg».proof.Proof.Gen.ReferenceIdeal.Run
import proofs.«116905_j29575144800914_2_alg».proof.Proof.Gen.ReferenceIdeal.Read
import proofs.«116905_j29575144800914_2_alg».proof.Proof.Gen.Pre_finite_inputs
import proofs.«116905_j29575144800914_2_alg».proof.Proof.KernelResult
import proofs.«116905_j29575144800914_2_alg».proof.Proof.RefGate
import proofs.«116905_j29575144800914_2_alg».proof.Proof.GateAlgebra
import Idealize.ShloMosaic.Adequacy
import Idealize.ShloMosaic.Init

noncomputable section

namespace Cert.Proof

open Idealize.ShloMosaic Idealize.ShloMosaic.ValueIdx Idealize.SL.Sem Cert.Lib Cert.Gate

/-- The three programs run and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On finite inputs the kernel's weights and folded loss are the reference's straight-through weights and loss over
    means: the precondition makes every entry of the three arguments a real number, which is what the two laws need. -/
theorem algebraic : Cert.algebraic_KernelIdeal_ReferenceIdeal := by
  intro m ρ m' ρ' hpre hagree
  refine ⟨fun c => Cert.KernelIdeal.GateValue.weightsOf m c, fun c => Cert.KernelIdeal.GateValue.lossOf m c,
    Cert.KernelIdeal.GateValue.run m ρ, ?_⟩
  refine (θ_run Cert.ReferenceIdeal.defs _ _).mono (fun _ h c => ?_) (Cert.ReferenceIdeal.Value.run (F := Ideal) m' ρ')
  obtain ⟨hX, hW, hR⟩ := Cert.Gate.finite_of_pre _ _ _ (hpre c)
  refine ⟨?_, ?_, (h c).2.2⟩
  · rw [(h c).1, Cert.ReferenceIdeal.Read.val_main_v21_eq, (hagree c).1, (hagree c).2.1]
    funext i
    rw [Cert.RefGate.ref_mask]
    exact maskThrough_eq _ _ (fun t k => hX (ix2 t k)) (fun e k => hW (ix2 e k)) (i 0) (i 1)
  · rw [(h c).2.1, Cert.ReferenceIdeal.Read.val_main_v32_eq, (hagree c).1, (hagree c).2.1, (hagree c).2.2]
    funext i
    rw [Cert.RefGate.ref_loss]
    exact lossMeans_eq _ _ _ (fun t k => hX (ix2 t k)) (fun e k => hW (ix2 e k)) (fun e => hR (ix1 e))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
